-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x320000 : Shape := ⟨2, ![2, 320000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x512 .f32) (main_arg1 : IVec S2x320000 32) (main_arg2 : FVec F S512x256 .f32) (main_arg3 : FVec F S256 .f32) (main_arg4 : FVec F S256x128 .f32) (main_arg5 : FVec F S128 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S10000x512 : Shape := ⟨2, ![10000, 512]⟩
abbrev S2x320000 : Shape := ⟨2, ![2, 320000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x320000 : Shape := ⟨2, ![1, 320000]⟩
abbrev S320000 : Shape := ⟨1, ![320000]⟩
abbrev S10000 : Shape := ⟨1, ![10000]⟩
abbrev S330000 : Shape := ⟨1, ![330000]⟩
abbrev S_ : Shape := ⟨0, ![]⟩
abbrev S330000x1 : Shape := ⟨2, ![330000, 1]⟩
abbrev S10000x1 : Shape := ⟨2, ![10000, 1]⟩
abbrev S10000x256 : Shape := ⟨2, ![10000, 256]⟩
abbrev S1000x512 : Shape := ⟨2, ![1000, 512]⟩
abbrev S1000x1 : Shape := ⟨2, ![1000, 1]⟩
abbrev S1000x256 : Shape := ⟨2, ![1000, 256]⟩
abbrev S330000x256 : Shape := ⟨2, ![330000, 256]⟩
abbrev S1x256 : Shape := ⟨2, ![1, 256]⟩
abbrev S10000x128 : Shape := ⟨2, ![10000, 128]⟩
abbrev S1000x128 : Shape := ⟨2, ![1000, 128]⟩
abbrev S330000x128 : Shape := ⟨2, ![330000, 128]⟩
abbrev S1x128 : Shape := ⟨2, ![1, 128]⟩

abbrev nBuf : Space → Nat
  | .hbm => 66
  | .vmem => 14
  | .smem => 0
  | _ => 0

abbrev bufTy : (tb : Table) → Fin (tcTables nBuf tb) → BufTy
  | .hbm, ⟨0, _⟩ => ⟨S10000x512, .f32⟩
  | .hbm, ⟨1, _⟩ => ⟨S2x320000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S10000, .i32⟩
  | .hbm, ⟨11, _⟩ => ⟨S330000, .i32⟩
  | .hbm, ⟨12, _⟩ => ⟨S330000, .i32⟩
  | .hbm, ⟨13, _⟩ => ⟨S_, .f32⟩
  | .hbm, ⟨14, _⟩ => ⟨S330000, .f32⟩
  | .hbm, ⟨15, _⟩ => ⟨S_, .f32⟩
  | .hbm, ⟨16, _⟩ => ⟨S10000, .f32⟩
  | .hbm, ⟨17, _⟩ => ⟨S330000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S10000x256, .f32⟩
  | .hbm, ⟨29, _⟩ => ⟨S_, .i32⟩
  | .hbm, ⟨30, _⟩ => ⟨S330000, .i32⟩
  | .hbm, ⟨31, _⟩ => ⟨S330000, .i1⟩
  | .hbm, ⟨32, _⟩ => ⟨S_, .i32⟩
  | .hbm, ⟨33, _⟩ => ⟨S330000, .i32⟩
  | .hbm, ⟨34, _⟩ => ⟨S330000, .i32⟩
  | .hbm, ⟨35, _⟩ => ⟨S330000, .i32⟩
  | .hbm, ⟨36, _⟩ => ⟨S330000x1, .i32⟩
  | .hbm, ⟨37, _⟩ => ⟨S330000x256, .f32⟩
  | .hbm, ⟨38, _⟩ => ⟨S_, .f32⟩
  | .hbm, ⟨39, _⟩ => ⟨S10000x256, .f32⟩
  | .hbm, ⟨40, _⟩ => ⟨S330000x1, .i32⟩
  | .hbm, ⟨41, _⟩ => ⟨S10000x256, .f32⟩
  | .hbm, ⟨42, _⟩ => ⟨S10000x256, .f32⟩
  | .hbm, ⟨43, _⟩ => ⟨S10000x256, .f32⟩
  | .hbm, ⟨44, _⟩ => ⟨S1x256, .f32⟩
  | .hbm, ⟨45, _⟩ => ⟨S10000x256, .f32⟩
  | .hbm, ⟨46, _⟩ => ⟨S10000x256, .f32⟩
  | .hbm, ⟨47, _⟩ => ⟨S10000x128, .f32⟩
  | .hbm, ⟨48, _⟩ => ⟨S_, .i32⟩
  | .hbm, ⟨49, _⟩ => ⟨S330000, .i32⟩
  | .hbm, ⟨50, _⟩ => ⟨S330000, .i1⟩
  | .hbm, ⟨51, _⟩ => ⟨S_, .i32⟩
  | .hbm, ⟨52, _⟩ => ⟨S330000, .i32⟩
  | .hbm, ⟨53, _⟩ => ⟨S330000, .i32⟩
  | .hbm, ⟨54, _⟩ => ⟨S330000, .i32⟩
  | .hbm, ⟨55, _⟩ => ⟨S330000x1, .i32⟩
  | .hbm, ⟨56, _⟩ => ⟨S330000x128, .f32⟩
  | .hbm, ⟨57, _⟩ => ⟨S_, .f32⟩
  | .hbm, ⟨58, _⟩ => ⟨S10000x128, .f32⟩
  | .hbm, ⟨59, _⟩ => ⟨S330000x1, .i32⟩
  | .hbm, ⟨60, _⟩ => ⟨S10000x128, .f32⟩
  | .hbm, ⟨61, _⟩ => ⟨S10000x128, .f32⟩
  | .hbm, ⟨62, _⟩ => ⟨S10000x128, .f32⟩
  | .hbm, ⟨63, _⟩ => ⟨S1x128, .f32⟩
  | .hbm, ⟨64, _⟩ => ⟨S10000x128, .f32⟩
  | .hbm, ⟨65, _⟩ => ⟨S10000x128, .f32⟩
  | .local _ .vmem, ⟨0, _⟩ => ⟨S1000x512, .f32⟩
  | .local _ .vmem, ⟨1, _⟩ => ⟨S1000x512, .f32⟩
  | .local _ .vmem, ⟨2, _⟩ => ⟨S512x256, .f32⟩
  | .local _ .vmem, ⟨3, _⟩ => ⟨S1000x1, .f32⟩
  | .local _ .vmem, ⟨4, _⟩ => ⟨S1000x1, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S256x128, .f32⟩
  | .local _ .vmem, ⟨10, _⟩ => ⟨S1000x1, .f32⟩
  | .local _ .vmem, ⟨11, _⟩ => ⟨S1000x1, .f32⟩
  | .local _ .vmem, ⟨12, _⟩ => ⟨S1000x128, .f32⟩
  | .local _ .vmem, ⟨13, _⟩ => ⟨S1000x128, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S10000_S10000x1_0 : S10000.BroadcastsInDim S10000x1 (![0] : Fin 1 → Fin S10000x1.rank)
  inb_S1000x512_S1000x512_0_0 : ∀ a, (![0, 0] : Fin 2 → Nat) a + S1000x512.size a ≤ S1000x512.size a
  h_S1000x512 : 0 < S1000x512.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1000x256_S1000x256_0_0 : ∀ a, (![0, 0] : Fin 2 → Nat) a + S1000x256.size a ≤ S1000x256.size a
  h_S1000x256 : 0 < S1000x256.numel
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  shapeCasts_S1000x256_S1000x256 : S1000x256.ShapeCasts S1000x256
  broadcasts_S1000x1_S1000x256 : S1000x1.Broadcasts S1000x256
  inb_S256x128_S256x128_0_0 : ∀ a, (![0, 0] : Fin 2 → Nat) a + S256x128.size a ≤ S256x128.size a
  h_S256x128 : 0 < S256x128.numel
  inb_S1000x128_S1000x128_0_0 : ∀ a, (![0, 0] : Fin 2 → Nat) a + S1000x128.size a ≤ S1000x128.size a
  h_S1000x128 : 0 < S1000x128.numel
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  scatter_S10000_S330000x1_S330000_n_0_0_1_wf : ScatterDims.WF S10000 S330000x1 S330000 [] [0] [0] 1
  dot_S1000x512_S512x256_S1000x256_1_0_0_1_n_n_wf : DotDims.WF S1000x512 S512x256 S1000x256 [1] [0] [0] [1] [] []
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S1000x256_S256x128_S1000x128_1_0_0_1_n_n_wf : DotDims.WF S1000x256 S256x128 S1000x128 [1] [0] [0] [1] [] []
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S10000x1.size a
  hwx0_2 : ∀ i : grid0.Coords, EltTy.bits .f32 = 32 ∨ (Rect.block (s := S10000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S10000x1.size a
  hwx1_2 : ∀ i : grid1.Coords, EltTy.bits .f32 = 32 ∨ (Rect.block (s := S10000x1) S1000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S10000x128.size a
  hwx1_3 : ∀ i : grid1.Coords, EltTy.bits .f32 = 32 ∨ (Rect.block (s := S10000x128) S1000x128.size (cc1_transform_3 i) (hinb1_3 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x512 : Shape := ⟨2, ![10000, 512]⟩
abbrev S2x320000 : Shape := ⟨2, ![2, 320000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x320000 : Shape := ⟨2, ![1, 320000]⟩
abbrev S320000 : Shape := ⟨1, ![320000]⟩
abbrev S10000x256 : Shape := ⟨2, ![10000, 256]⟩
abbrev S10000 : Shape := ⟨1, ![10000]⟩
abbrev S330000 : Shape := ⟨1, ![330000]⟩
abbrev S_ : Shape := ⟨0, ![]⟩
abbrev S330000x1 : Shape := ⟨2, ![330000, 1]⟩
abbrev S330000x256 : Shape := ⟨2, ![330000, 256]⟩
abbrev S1x256 : Shape := ⟨2, ![1, 256]⟩
abbrev S10000x128 : Shape := ⟨2, ![10000, 128]⟩
abbrev S330000x128 : Shape := ⟨2, ![330000, 128]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x320000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S10000x256, .f32⟩
  | .hbm, ⟨11, _⟩ => ⟨S10000, .i32⟩
  | .hbm, ⟨12, _⟩ => ⟨S330000, .i32⟩
  | .hbm, ⟨13, _⟩ => ⟨S330000, .i32⟩
  | .hbm, ⟨14, _⟩ => ⟨S_, .f32⟩
  | .hbm, ⟨15, _⟩ => ⟨S330000, .f32⟩
  | .hbm, ⟨16, _⟩ => ⟨S_, .f32⟩
  | .hbm, ⟨17, _⟩ => ⟨S10000, .f32⟩
  | .hbm, ⟨18, _⟩ => ⟨S330000x1, .i32⟩
  | .hbm, ⟨19, _⟩ => ⟨S10000, .f32⟩
  | .hbm, ⟨20, _⟩ => ⟨S_, .f32⟩
  | .hbm, ⟨21, _⟩ => ⟨S10000, .f32⟩
  | .hbm, ⟨22, _⟩ => ⟨S10000, .i1⟩
  | .hbm, ⟨23, _⟩ => ⟨S10000, .f32⟩
  | .hbm, ⟨24, _⟩ => ⟨S_, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S_, .i32⟩
  | .hbm, ⟨29, _⟩ => ⟨S330000, .i32⟩
  | .hbm, ⟨30, _⟩ => ⟨S330000, .i1⟩
  | .hbm, ⟨31, _⟩ => ⟨S_, .i32⟩
  | .hbm, ⟨32, _⟩ => ⟨S330000, .i32⟩
  | .hbm, ⟨33, _⟩ => ⟨S330000, .i32⟩
  | .hbm, ⟨34, _⟩ => ⟨S330000, .i32⟩
  | .hbm, ⟨35, _⟩ => ⟨S330000x1, .i32⟩
  | .hbm, ⟨36, _⟩ => ⟨S330000, .f32⟩
  | .hbm, ⟨37, _⟩ => ⟨S_, .i32⟩
  | .hbm, ⟨38, _⟩ => ⟨S330000, .i32⟩
  | .hbm, ⟨39, _⟩ => ⟨S330000, .i1⟩
  | .hbm, ⟨40, _⟩ => ⟨S_, .i32⟩
  | .hbm, ⟨41, _⟩ => ⟨S330000, .i32⟩
  | .hbm, ⟨42, _⟩ => ⟨S330000, .i32⟩
  | .hbm, ⟨43, _⟩ => ⟨S330000, .i32⟩
  | .hbm, ⟨44, _⟩ => ⟨S330000x1, .i32⟩
  | .hbm, ⟨45, _⟩ => ⟨S330000, .f32⟩
  | .hbm, ⟨46, _⟩ => ⟨S330000, .f32⟩
  | .hbm, ⟨47, _⟩ => ⟨S_, .i32⟩
  | .hbm, ⟨48, _⟩ => ⟨S330000, .i32⟩
  | .hbm, ⟨49, _⟩ => ⟨S330000, .i1⟩
  | .hbm, ⟨50, _⟩ => ⟨S_, .i32⟩
  | .hbm, ⟨51, _⟩ => ⟨S330000, .i32⟩
  | .hbm, ⟨52, _⟩ => ⟨S330000, .i32⟩
  | .hbm, ⟨53, _⟩ => ⟨S330000, .i32⟩
  | .hbm, ⟨54, _⟩ => ⟨S330000x1, .i32⟩
  | .hbm, ⟨55, _⟩ => ⟨S330000x256, .f32⟩
  | .hbm, ⟨56, _⟩ => ⟨S330000x1, .f32⟩
  | .hbm, ⟨57, _⟩ => ⟨S330000x256, .f32⟩
  | .hbm, ⟨58, _⟩ => ⟨S330000x256, .f32⟩
  | .hbm, ⟨59, _⟩ => ⟨S_, .f32⟩
  | .hbm, ⟨60, _⟩ => ⟨S10000x256, .f32⟩
  | .hbm, ⟨61, _⟩ => ⟨S330000x1, .i32⟩
  | .hbm, ⟨62, _⟩ => ⟨S10000x256, .f32⟩
  | .hbm, ⟨63, _⟩ => ⟨S1x256, .f32⟩
  | .hbm, ⟨64, _⟩ => ⟨S10000x256, .f32⟩
  | .hbm, ⟨65, _⟩ => ⟨S10000x256, .f32⟩
  | .hbm, ⟨66, _⟩ => ⟨S_, .f32⟩
  | .hbm, ⟨67, _⟩ => ⟨S10000x256, .f32⟩
  | .hbm, ⟨68, _⟩ => ⟨S10000x256, .f32⟩
  | .hbm, ⟨69, _⟩ => ⟨S10000x128, .f32⟩
  | .hbm, ⟨70, _⟩ => ⟨S10000, .i32⟩
  | .hbm, ⟨71, _⟩ => ⟨S330000, .i32⟩
  | .hbm, ⟨72, _⟩ => ⟨S330000, .i32⟩
  | .hbm, ⟨73, _⟩ => ⟨S_, .f32⟩
  | .hbm, ⟨74, _⟩ => ⟨S330000, .f32⟩
  | .hbm, ⟨75, _⟩ => ⟨S_, .f32⟩
  | .hbm, ⟨76, _⟩ => ⟨S10000, .f32⟩
  | .hbm, ⟨77, _⟩ => ⟨S330000x1, .i32⟩
  | .hbm, ⟨78, _⟩ => ⟨S10000, .f32⟩
  | .hbm, ⟨79, _⟩ => ⟨S_, .f32⟩
  | .hbm, ⟨80, _⟩ => ⟨S10000, .f32⟩
  | .hbm, ⟨81, _⟩ => ⟨S10000, .i1⟩
  | .hbm, ⟨82, _⟩ => ⟨S10000, .f32⟩
  | .hbm, ⟨83, _⟩ => ⟨S_, .f32⟩
  | .hbm, ⟨84, _⟩ => ⟨S_, .f32⟩
  | .hbm, ⟨85, _⟩ => ⟨S10000, .f32⟩
  | .hbm, ⟨86, _⟩ => ⟨S10000, .f32⟩
  | .hbm, ⟨87, _⟩ => ⟨S_, .i32⟩
  | .hbm, ⟨88, _⟩ => ⟨S330000, .i32⟩
  | .hbm, ⟨89, _⟩ => ⟨S330000, .i1⟩
  | .hbm, ⟨90, _⟩ => ⟨S_, .i32⟩
  | .hbm, ⟨91, _⟩ => ⟨S330000, .i32⟩
  | .hbm, ⟨92, _⟩ => ⟨S330000, .i32⟩
  | .hbm, ⟨93, _⟩ => ⟨S330000, .i32⟩
  | .hbm, ⟨94, _⟩ => ⟨S330000x1, .i32⟩
  | .hbm, ⟨95, _⟩ => ⟨S330000, .f32⟩
  | .hbm, ⟨96, _⟩ => ⟨S_, .i32⟩
  | .hbm, ⟨97, _⟩ => ⟨S330000, .i32⟩
  | .hbm, ⟨98, _⟩ => ⟨S330000, .i1⟩
  | .hbm, ⟨99, _⟩ => ⟨S_, .i32⟩
  | .hbm, ⟨100, _⟩ => ⟨S330000, .i32⟩
  | .hbm, ⟨101, _⟩ => ⟨S330000, .i32⟩
  | .hbm, ⟨102, _⟩ => ⟨S330000, .i32⟩
  | .hbm, ⟨103, _⟩ => ⟨S330000x1, .i32⟩
  | .hbm, ⟨104, _⟩ => ⟨S330000, .f32⟩
  | .hbm, ⟨105, _⟩ => ⟨S330000, .f32⟩
  | .hbm, ⟨106, _⟩ => ⟨S_, .i32⟩
  | .hbm, ⟨107, _⟩ => ⟨S330000, .i32⟩
  | .hbm, ⟨108, _⟩ => ⟨S330000, .i1⟩
  | .hbm, ⟨109, _⟩ => ⟨S_, .i32⟩
  | .hbm, ⟨110, _⟩ => ⟨S330000, .i32⟩
  | .hbm, ⟨111, _⟩ => ⟨S330000, .i32⟩
  | .hbm, ⟨112, _⟩ => ⟨S330000, .i32⟩
  | .hbm, ⟨113, _⟩ => ⟨S330000x1, .i32⟩
  | .hbm, ⟨114, _⟩ => ⟨S330000x128, .f32⟩
  | .hbm, ⟨115, _⟩ => ⟨S330000x1, .f32⟩
  | .hbm, ⟨116, _⟩ => ⟨S330000x128, .f32⟩
  | .hbm, ⟨117, _⟩ => ⟨S330000x128, .f32⟩
  | .hbm, ⟨118, _⟩ => ⟨S_, .f32⟩
  | .hbm, ⟨119, _⟩ => ⟨S10000x128, .f32⟩
  | .hbm, ⟨120, _⟩ => ⟨S330000x1, .i32⟩
  | .hbm, ⟨121, _⟩ => ⟨S10000x128, .f32⟩
  | .hbm, ⟨122, _⟩ => ⟨S1x128, .f32⟩
  | .hbm, ⟨123, _⟩ => ⟨S10000x128, .f32⟩
  | .hbm, ⟨124, _⟩ => ⟨S10000x128, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x512_S512x256_S10000x256_1_0_0_1_n_n_wf : DotDims.WF S10000x512 S512x256 S10000x256 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S10000x256_S256x128_S10000x128_1_0_0_1_n_n_wf : DotDims.WF S10000x256 S256x128 S10000x128 [1] [0] [0] [1] [] []
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1

variable [Facts₀]

def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf

class Facts : Prop extends Facts₀ where

variable [Facts]
-- ==== Proof.KRun.lean ====
/-
  The idealized kernel's run with its result named.

  @main is seven segments: three stretches of host operations, the first matrix-unit region, a stretch, the second
  region, a last stretch.  The buffer contents at each boundary are a fold from the launch memory (`W0 … W7` of the
  generated frame module); every weakly fair execution terminates with EVERY unscoped buffer at the last
  boundary's contents `W7`.  The generated frame keeps of this only that the six arguments end as launched; here
  the same launch is read once more, keeping also the result buffer: it ends at `W7`'s contents of that buffer.
-/
import proofs.«126754_j27788438405708_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the six arguments as launched. -/
theorem run_named : θ_run defs (onTc (τ := τ) (main (F := F))) ⟨m, fun _ => 0, ρ⟩ (fun r => ∀ c : Dev nD,
      r.2.mem ((c.tc : Thread nD τ).loc main_v47) = W7 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v47 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.KTerm.lean ====
/-
  The idealized kernel's host side as whole-array terms, in the program's own vocabulary.

  The graph quantities every layer shares are functions of the edge array alone: the source and destination lists
  with the self-loops appended, a negative number wrapped as array indexing wraps it, the degree of every node
  (a one added per list entry at the node it names) and its guarded inverse square root.  A layer's host tail
  takes the rows `hs` a matrix-unit region produced (already scaled by the inverse square roots), gathers the
  source rows of all edges, adds them at their destinations, scales row `i` by the `i`-th inverse square root again
  and adds the bias.  Each term is written over the arrays it reads, so that it can be stated at any buffer
  contents.
-/
import proofs.«126754_j27788438405708_2_alg».proof.KernelIdeal
import proofs.«126754_j27788438405708_2_alg».proof.Proof.Gen.KernelIdeal
import Idealize.ShloMosaic.PureOps.Ideal

noncomputable section

namespace Cert.KernelIdeal.Term

open Cert.KernelIdeal Cert.KernelIdeal.Gen Idealize.ShloMosaic

/-- Row 0 of the edge array (the sources), as a list of 320000 node numbers. -/
def row0 (ei : IVec S2x320000 32) : IVec S320000 32 :=
  shapeCast S320000 (extractStridedSlice S1x320000 ![0, 0] ei slices_S2x320000_S1x320000_0_0) shapeCasts_S1x320000_S320000

/-- Row 1 of the edge array (the destinations). -/
def row1 (ei : IVec S2x320000 32) : IVec S320000 32 :=
  shapeCast S320000 (extractStridedSlice S1x320000 ![1, 0] ei slices_S2x320000_S1x320000_1_0) shapeCasts_S1x320000_S320000

/-- A list of edges' node numbers with the self-loops `0 … 9999` appended: 330000 node numbers. -/
def loops (v : IVec S320000 32) : IVec S330000 32 :=
  concatenate S330000 0 [⟨S320000, v⟩, ⟨S10000, (iotaInDim S10000 32 0)⟩] concatenates_S320000_S10000_S330000_d0

def srcSl (ei : IVec S2x320000 32) : IVec S330000 32 := loops (row0 ei)
def dstSl (ei : IVec S2x320000 32) : IVec S330000 32 := loops (row1 ei)

/-- A negative node number counted from the end, as array indexing reads it. -/
def wrap (v : IVec S330000 32) : IVec S330000 32 :=
  select (cmpi .slt v (broadcastInDim S330000 ![] bcast_S_S330000 (constantI S_ 32 0#32))) (addi v (broadcastInDim S330000 ![] bcast_S_S330000 (constantI S_ 32 10000#32))) v

/-- A list of node numbers as the one-column index array a gather or scatter takes. -/
def col (v : IVec S330000 32) : IVec S330000x1 32 :=
  broadcastInDim S330000x1 ![0] bcast_S330000_S330000x1_0 v

/-- The degree of every node: a one for every entry of the destination list added at the node it names. -/
def degOf (dst : IVec S330000 32) : FVec Ideal S10000 .f32 :=
  Host.scatterAdd scatter_S10000_S330000x1_S330000_n_0_0_1 (broadcastInDim S10000 ![] bcast_S_S10000 (constant (F := Ideal) S_ .f32 0x00000000#32)) (col dst) (broadcastInDim S330000 ![] bcast_S_S330000 (constant (F := Ideal) S_ .f32 0x3F800000#32))

/-- `where(deg > 0, rsqrt deg, 0)`. -/
def dinvOf (dst : IVec S330000 32) : FVec Ideal S10000 .f32 :=
  select (cmpf (F := Ideal) .ogt (degOf dst) (broadcastInDim S10000 ![] bcast_S_S10000 (constant (F := Ideal) S_ .f32 0x00000000#32))) (Host.rsqrt (F := Ideal) (degOf dst)) (broadcastInDim S10000 ![] bcast_S_S10000 (id (constant (F := Ideal) S_ .f32 0x00000000#32)))

/-- The inverse square roots as the one-column array the regions read. -/
def dinvColOf (dst : IVec S330000 32) : FVec Ideal S10000x1 .f32 :=
  broadcastInDim S10000x1 ![0] bcast_S10000_S10000x1_0 (dinvOf dst)

/-- The host tail of the first layer (width 256), over the arrays it reads. -/
def tail256 (hs : FVec Ideal S10000x256 .f32) (b : FVec Ideal S256 .f32) (src dst : IVec S330000 32) (dcol : FVec Ideal S10000x1 .f32) : FVec Ideal S10000x256 .f32 :=
  addf (mulf (Host.scatterAdd scatter_S10000x256_S330000x1_S330000x256_1_0_0_1 (broadcastInDim S10000x256 ![] bcast_S_S10000x256 (constant (F := Ideal) S_ .f32 0x00000000#32)) (col dst) (Host.gather gather_S10000x256_S330000x1_S330000x256_1_0_n_n_0_1_1256 hs (col (wrap src)))) (broadcastInDim S10000x256 ![0, 1] bcast_S10000x1_S10000x256_0_1 dcol)) (broadcastInDim S10000x256 ![0, 1] bcast_S1x256_S10000x256_0_1 (broadcastInDim S1x256 ![1] bcast_S256_S1x256_1 b))

/-- The host tail of the second layer (width 128), over the arrays it reads. -/
def tail128 (hs : FVec Ideal S10000x128 .f32) (b : FVec Ideal S128 .f32) (src dst : IVec S330000 32) (dcol : FVec Ideal S10000x1 .f32) : FVec Ideal S10000x128 .f32 :=
  addf (mulf (Host.scatterAdd scatter_S10000x128_S330000x1_S330000x128_1_0_0_1 (broadcastInDim S10000x128 ![] bcast_S_S10000x128 (constant (F := Ideal) S_ .f32 0x00000000#32)) (col dst) (Host.gather gather_S10000x128_S330000x1_S330000x128_1_0_n_n_0_1_1128 hs (col (wrap src)))) (broadcastInDim S10000x128 ![0, 1] bcast_S10000x1_S10000x128_0_1 dcol)) (broadcastInDim S10000x128 ![0, 1] bcast_S1x128_S10000x128_0_1 (broadcastInDim S1x128 ![1] bcast_S128_S1x128_1 b))

end Cert.KernelIdeal.Term

end
-- ==== Proof.LibAfter.lean ====
/-
  Two facts about a straight line of host operations, for running a long line in segments.

  The contents of the buffers after a line of operations is a fold over the line (each operation rewrites the buffers
  it writes and leaves the rest), so the contents after a concatenation of two lines are the contents after the second
  line, started from the contents after the first (`after_append`). And the side condition "no operation of the line
  allocates a buffer", which a run of the line asks for every member of the list, follows from the same condition
  stated as one conjunction over the list (`fresh_of_forall`), which splits along a concatenation (`forall_append`)
  and which, for a list written out operation by operation, holds by computation (`all_fresh`).
-/
import Idealize.ShloMosaic.Lib.StableHlo.Run

namespace Cert.LibAfter

open Idealize.ShloMosaic Idealize.ShloMosaic.StableHlo

variable {τ : Topo} {sig : RefSig} {Val : EltTy → Type}

/-- The buffer contents after a concatenation of two lines of operations are the contents after the second line,
    started from the contents after the first. -/
theorem after_append (a b : List (HloOp τ sig Val)) (V : Valuation τ sig Val) :
    after (a ++ b) V = after b (after a V) := by
  induction a generalizing V with
  | nil => rfl
  | cons op a ih => rw [List.cons_append, after_cons, after_cons, ih]

/-- A property of every operation of a concatenation is the property of every operation of each part. -/
theorem forall_append {α : Type} (p : α → Prop) (a b : List α) :
    (a ++ b).Forall p ↔ a.Forall p ∧ b.Forall p :=
  List.forall_append

/-- The property of each part gives the property of the concatenation. -/
theorem Forall.append {α : Type} {p : α → Prop} {a b : List α} (ha : a.Forall p) (hb : b.Forall p) :
    (a ++ b).Forall p :=
  (forall_append p a b).mpr ⟨ha, hb⟩

/-- "No operation allocates a buffer", stated as one conjunction over the list, gives it for every member. -/
theorem fresh_of_forall {ops : List (HloOp τ sig Val)} (h : ops.Forall fun op => op.fresh = ∅) :
    ∀ op ∈ ops, op.fresh = ∅ :=
  List.forall_iff_forall_mem.mp h

/-- The same for a family of lines, one per device: the form a run of the line asks for. -/
theorem fresh_of_forall_dev {ι : Type} {ops : ι → List (HloOp τ sig Val)}
    (h : ∀ d, (ops d).Forall fun op => op.fresh = ∅) : ∀ d, ∀ op ∈ ops d, op.fresh = ∅ :=
  fun d => fresh_of_forall (h d)

/-- `all_fresh ops` proves `ops.Forall fun op => op.fresh = ∅` for a list `ops` written out operation by operation
    (under a name, which is unfolded first): the conjunction over the list is split, and each operation built by a
    non-allocating builder has the empty set of fresh buffers by computation. -/
macro "all_fresh " ops:ident : tactic =>
  `(tactic| (first | simp only [$ops:ident, List.Forall] | simp only [List.Forall]
             repeat' constructor))

end Cert.LibAfter
-- ==== Proof.KFold.lean ====
/-
  The idealized kernel's buffers at the boundaries of @main, read as whole-array terms.

  @main's host side is four stretches of operations around two matrix-unit regions.  A stretch's effect is stated
  for ARBITRARY buffer contents `V` before it: which array each buffer it writes ends at, as a term of the arrays
  `V` holds, and that the buffers it does not write keep `V`'s contents.  (The first stretch is cut after the two
  list concatenations: the lists with the self-loops appended come first, the degree and its inverse square root
  after.)  A region rewrites its output array and leaves everything else.  Walking the boundaries in order then
  gives the result buffer after the last stretch as the second layer's host tail of the second region's output,
  the second region having read the first layer's host tail of the first region's output.
-/
import proofs.«126754_j27788438405708_2_alg».proof.Proof.Gen.KernelIdeal.Frame
import proofs.«126754_j27788438405708_2_alg».proof.Proof.KTerm
import proofs.«126754_j27788438405708_2_alg».proof.Proof.LibAfter
import Idealize.ShloMosaic.Lib.StableHlo.Run

set_option maxRecDepth 16384

noncomputable section

namespace Cert.KernelIdeal.Fold

open Cert.KernelIdeal Cert.KernelIdeal.Gen Cert.KernelIdeal.Term
open Idealize.ShloMosaic Idealize.ShloMosaic.StableHlo Idealize.ShloMosaic.TcCoe Idealize.SL.Sem
open Idealize.ShloMosaic.Pipeline (Dat)

/-! ## The first stretch, cut after the list concatenations -/

variable {F : FTy → Type} [FloatOps F]

/-- The first stretch's operations up to the two lists with the self-loops appended. -/
abbrev opsLists : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.nullary main_v4 (iotaInDim S10000 32 0),
    StableHlo.binary main_v1 main_v4 main_v5 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    StableHlo.binary main_v3 main_v4 main_v6 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)) ]
/-- The rest of the first stretch: the degree and its inverse square root's ingredients. -/
abbrev opsDeg : List (HloOp τ sig (Elt F)) :=
  [ StableHlo.nullary main_cst (constant S_ .f32 0x3F800000#32),
    StableHlo.unary main_cst main_v7 (broadcastInDim S330000 ![] bcast_S_S330000 : (⟨S_, .f32⟩ : BufTy).Contents (Elt F) → (⟨S330000, .f32⟩ : BufTy).Contents (Elt F)),
    StableHlo.nullary main_cst_0 (constant S_ .f32 0x00000000#32),
    StableHlo.unary main_cst_0 main_v8 (broadcastInDim S10000 ![] bcast_S_S10000 : (⟨S_, .f32⟩ : BufTy).Contents (Elt F) → (⟨S10000, .f32⟩ : BufTy).Contents (Elt F)),
    StableHlo.unary main_v6 main_v9 (broadcastInDim S330000x1 ![0] bcast_S330000_S330000x1_0 : (⟨S330000, .i32⟩ : BufTy).Contents (Elt F) → (⟨S330000x1, .i32⟩ : BufTy).Contents (Elt F)),
    StableHlo.ternary main_v8 main_v9 main_v7 main_v10 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    StableHlo.nullary main_cst_1 (constant S_ .f32 0x00000000#32),
    StableHlo.unary main_cst_1 main_v11 (broadcastInDim S10000 ![] bcast_S_S10000 : (⟨S_, .f32⟩ : BufTy).Contents (Elt F) → (⟨S10000, .f32⟩ : BufTy).Contents (Elt F)),
    StableHlo.binary main_v10 main_v11 main_v12 (cmpf .ogt : (⟨S10000, .f32⟩ : BufTy).Contents (Elt F) → (⟨S10000, .f32⟩ : BufTy).Contents (Elt F) → (⟨S10000, .i1⟩ : BufTy).Contents (Elt F)),
    StableHlo.unary main_v10 main_v13 (Host.rsqrt : (⟨S10000, .f32⟩ : BufTy).Contents (Elt F) → (⟨S10000, .f32⟩ : BufTy).Contents (Elt F)),
    StableHlo.nullary main_cst_2 (constant S_ .f32 0x00000000#32) ]
theorem hostOps0_eq : (hostOps0 : List (HloOp τ sig (Elt F))) = opsLists ++ opsDeg := rfl

section Stretch
variable (V : Valuation τ sig (Elt Ideal))

/-- The source list with the self-loops appended. -/
theorem lists_v5 : after (opsLists (F := Ideal)) V (Proc.devRef .tc main_v5) = loops (row0 (V (Proc.devRef .tc main_arg1))) := by
  simp only [opsLists]
  after_results_simp
  rfl
/-- The destination list with the self-loops appended. -/
theorem lists_v6 : after (opsLists (F := Ideal)) V (Proc.devRef .tc main_v6) = loops (row1 (V (Proc.devRef .tc main_arg1))) := by
  simp only [opsLists]
  after_results_simp
  rfl
theorem lists_keep_arg0 : after (opsLists (F := Ideal)) V (Proc.devRef .tc main_arg0) = V (Proc.devRef .tc main_arg0) := by
  simp only [opsLists]
  after_results_simp
theorem lists_keep_arg2 : after (opsLists (F := Ideal)) V (Proc.devRef .tc main_arg2) = V (Proc.devRef .tc main_arg2) := by
  simp only [opsLists]
  after_results_simp
theorem lists_keep_arg3 : after (opsLists (F := Ideal)) V (Proc.devRef .tc main_arg3) = V (Proc.devRef .tc main_arg3) := by
  simp only [opsLists]
  after_results_simp
theorem lists_keep_arg4 : after (opsLists (F := Ideal)) V (Proc.devRef .tc main_arg4) = V (Proc.devRef .tc main_arg4) := by
  simp only [opsLists]
  after_results_simp
theorem lists_keep_arg5 : after (opsLists (F := Ideal)) V (Proc.devRef .tc main_arg5) = V (Proc.devRef .tc main_arg5) := by
  simp only [opsLists]
  after_results_simp

/-- The inverse square roots of the degrees, as the one-column array, from the destination list. -/
theorem deg_v15 : after hostOps0_2 (after hostOps0_1 (after (opsDeg (F := Ideal)) V)) (Proc.devRef .tc main_v15) = dinvColOf (V (Proc.devRef .tc main_v6)) := by
  simp only [opsDeg, hostOps0_1, hostOps0_2]
  after_results_simp
  simp only [TRef.toBuf, TRef.ofBuf, cast_eq]
  rfl
theorem deg_keep_v5 : after hostOps0_2 (after hostOps0_1 (after (opsDeg (F := Ideal)) V)) (Proc.devRef .tc main_v5) = V (Proc.devRef .tc main_v5) := by
  simp only [opsDeg, hostOps0_1, hostOps0_2]
  after_results_simp
theorem deg_keep_v6 : after hostOps0_2 (after hostOps0_1 (after (opsDeg (F := Ideal)) V)) (Proc.devRef .tc main_v6) = V (Proc.devRef .tc main_v6) := by
  simp only [opsDeg, hostOps0_1, hostOps0_2]
  after_results_simp
theorem deg_keep_arg0 : after hostOps0_2 (after hostOps0_1 (after (opsDeg (F := Ideal)) V)) (Proc.devRef .tc main_arg0) = V (Proc.devRef .tc main_arg0) := by
  simp only [opsDeg, hostOps0_1, hostOps0_2]
  after_results_simp
theorem deg_keep_arg2 : after hostOps0_2 (after hostOps0_1 (after (opsDeg (F := Ideal)) V)) (Proc.devRef .tc main_arg2) = V (Proc.devRef .tc main_arg2) := by
  simp only [opsDeg, hostOps0_1, hostOps0_2]
  after_results_simp
theorem deg_keep_arg3 : after hostOps0_2 (after hostOps0_1 (after (opsDeg (F := Ideal)) V)) (Proc.devRef .tc main_arg3) = V (Proc.devRef .tc main_arg3) := by
  simp only [opsDeg, hostOps0_1, hostOps0_2]
  after_results_simp
theorem deg_keep_arg4 : after hostOps0_2 (after hostOps0_1 (after (opsDeg (F := Ideal)) V)) (Proc.devRef .tc main_arg4) = V (Proc.devRef .tc main_arg4) := by
  simp only [opsDeg, hostOps0_1, hostOps0_2]
  after_results_simp
theorem deg_keep_arg5 : after hostOps0_2 (after hostOps0_1 (after (opsDeg (F := Ideal)) V)) (Proc.devRef .tc main_arg5) = V (Proc.devRef .tc main_arg5) := by
  simp only [opsDeg, hostOps0_1, hostOps0_2]
  after_results_simp

/-- The first layer's host tail. -/
theorem tail1_v31 : after hostOps1 V (Proc.devRef .tc main_v31)
    = tail256 (V (Proc.devRef .tc main_v16)) (V (Proc.devRef .tc main_arg3)) (V (Proc.devRef .tc main_v5)) (V (Proc.devRef .tc main_v6)) (V (Proc.devRef .tc main_v15)) := by
  simp only [hostOps1]
  after_results_simp
  rfl
theorem tail1_keep_v5 : after hostOps1 V (Proc.devRef .tc main_v5) = V (Proc.devRef .tc main_v5) := by
  simp only [hostOps1]
  after_results_simp
theorem tail1_keep_v6 : after hostOps1 V (Proc.devRef .tc main_v6) = V (Proc.devRef .tc main_v6) := by
  simp only [hostOps1]
  after_results_simp
theorem tail1_keep_v15 : after hostOps1 V (Proc.devRef .tc main_v15) = V (Proc.devRef .tc main_v15) := by
  simp only [hostOps1]
  after_results_simp
theorem tail1_keep_arg4 : after hostOps1 V (Proc.devRef .tc main_arg4) = V (Proc.devRef .tc main_arg4) := by
  simp only [hostOps1]
  after_results_simp
theorem tail1_keep_arg5 : after hostOps1 V (Proc.devRef .tc main_arg5) = V (Proc.devRef .tc main_arg5) := by
  simp only [hostOps1]
  after_results_simp

/-- The second layer's host tail. -/
theorem tail2_v47 : after hostOps2 V (Proc.devRef .tc main_v47)
    = tail128 (V (Proc.devRef .tc main_v32)) (V (Proc.devRef .tc main_arg5)) (V (Proc.devRef .tc main_v5)) (V (Proc.devRef .tc main_v6)) (V (Proc.devRef .tc main_v15)) := by
  simp only [hostOps2]
  after_results_simp
  rfl

end Stretch

/-! ## The boundaries, in order -/

variable (m : (ℓ : Loc nD τ sig) → Buf (Elt Ideal) ℓ) (ρ : Dev nD → PrngReg) (c : Dev nD)

/-- The first region's entry contents are the first three stretches' fold over the launch memory, the first stretch
    in its two parts. -/
theorem W3_eq : W3 (F := Ideal) m ρ c = after hostOps0_2 (after hostOps0_1 (after (opsDeg (F := Ideal)) (after (opsLists (F := Ideal)) (W0 m ρ c)))) := by
  show after hostOps0_2 (after hostOps0_1 (after hostOps0 (W0 m ρ c))) = _
  rw [hostOps0_eq, Cert.LibAfter.after_append]

theorem W3_v5 : W3 (F := Ideal) m ρ c (Proc.devRef .tc main_v5) = srcSl (m ((c.tc : Thread nD τ).loc main_arg1)) := by
  rw [W3_eq, deg_keep_v5, lists_v5]; rfl
theorem W3_v6 : W3 (F := Ideal) m ρ c (Proc.devRef .tc main_v6) = dstSl (m ((c.tc : Thread nD τ).loc main_arg1)) := by
  rw [W3_eq, deg_keep_v6, lists_v6]; rfl
theorem W3_v15 : W3 (F := Ideal) m ρ c (Proc.devRef .tc main_v15) = dinvColOf (dstSl (m ((c.tc : Thread nD τ).loc main_arg1))) := by
  rw [W3_eq, deg_v15, lists_v6]; rfl
theorem W3_arg0 : W3 (F := Ideal) m ρ c (Proc.devRef .tc main_arg0) = m ((c.tc : Thread nD τ).loc main_arg0) := by
  rw [W3_eq, deg_keep_arg0, lists_keep_arg0]
theorem W3_arg2 : W3 (F := Ideal) m ρ c (Proc.devRef .tc main_arg2) = m ((c.tc : Thread nD τ).loc main_arg2) := by
  rw [W3_eq, deg_keep_arg2, lists_keep_arg2]
theorem W3_arg3 : W3 (F := Ideal) m ρ c (Proc.devRef .tc main_arg3) = m ((c.tc : Thread nD τ).loc main_arg3) := by
  rw [W3_eq, deg_keep_arg3, lists_keep_arg3]
theorem W3_arg4 : W3 (F := Ideal) m ρ c (Proc.devRef .tc main_arg4) = m ((c.tc : Thread nD τ).loc main_arg4) := by
  rw [W3_eq, deg_keep_arg4, lists_keep_arg4]
theorem W3_arg5 : W3 (F := Ideal) m ρ c (Proc.devRef .tc main_arg5) = m ((c.tc : Thread nD τ).loc main_arg5) := by
  rw [W3_eq, deg_keep_arg5, lists_keep_arg5]

/-- The first region leaves every buffer but its output array. -/
theorem W4_v5 : W4 (F := Ideal) m ρ c (Proc.devRef .tc main_v5) = W3 m ρ c (Proc.devRef .tc main_v5) := W4_of_ne m ρ c main_v5 (by decide)
theorem W4_v6 : W4 (F := Ideal) m ρ c (Proc.devRef .tc main_v6) = W3 m ρ c (Proc.devRef .tc main_v6) := W4_of_ne m ρ c main_v6 (by decide)
theorem W4_arg3 : W4 (F := Ideal) m ρ c (Proc.devRef .tc main_arg3) = W3 m ρ c (Proc.devRef .tc main_arg3) := W4_of_ne m ρ c main_arg3 (by decide)
theorem W4_arg4 : W4 (F := Ideal) m ρ c (Proc.devRef .tc main_arg4) = W3 m ρ c (Proc.devRef .tc main_arg4) := W4_of_ne m ρ c main_arg4 (by decide)
theorem W4_arg5 : W4 (F := Ideal) m ρ c (Proc.devRef .tc main_arg5) = W3 m ρ c (Proc.devRef .tc main_arg5) := W4_of_ne m ρ c main_arg5 (by decide)
theorem W4_v15 : W4 (F := Ideal) m ρ c (Proc.devRef .tc main_v15) = W3 m ρ c (Proc.devRef .tc main_v15) :=
  (W4_arr m ρ c 2).trans (((dat0 (V3 m ρ) c).arrAt_in 2 rfl _).trans (A_eq0 (V3 m ρ) c 2))
theorem W4_v16 : W4 (F := Ideal) m ρ c (Proc.devRef .tc main_v16) = (dat0 (V3 m ρ) c).arrAt 3 cfg0.N := W4_arr m ρ c 3

/-- The second region leaves every buffer but its output array. -/
theorem W6_v5 : W6 (F := Ideal) m ρ c (Proc.devRef .tc main_v5) = W5 m ρ c (Proc.devRef .tc main_v5) := W6_of_ne m ρ c main_v5 (by decide)
theorem W6_v6 : W6 (F := Ideal) m ρ c (Proc.devRef .tc main_v6) = W5 m ρ c (Proc.devRef .tc main_v6) := W6_of_ne m ρ c main_v6 (by decide)
theorem W6_arg5 : W6 (F := Ideal) m ρ c (Proc.devRef .tc main_arg5) = W5 m ρ c (Proc.devRef .tc main_arg5) := W6_of_ne m ρ c main_arg5 (by decide)
theorem W6_v15 : W6 (F := Ideal) m ρ c (Proc.devRef .tc main_v15) = W5 m ρ c (Proc.devRef .tc main_v15) :=
  (W6_arr m ρ c 2).trans (((dat1 (V5 m ρ) c).arrAt_in 2 rfl _).trans (A_eq1 (V5 m ρ) c 2))
theorem W6_v32 : W6 (F := Ideal) m ρ c (Proc.devRef .tc main_v32) = (dat1 (V5 m ρ) c).arrAt 3 cfg1.N := W6_arr m ρ c 3

/-- The arrays every later boundary still holds: the two lists, the inverse square roots, the weights and biases. -/
theorem W5_v5 : W5 (F := Ideal) m ρ c (Proc.devRef .tc main_v5) = srcSl (m ((c.tc : Thread nD τ).loc main_arg1)) := by
  show after hostOps1 (W4 m ρ c) _ = _; rw [tail1_keep_v5, W4_v5, W3_v5]
theorem W5_v6 : W5 (F := Ideal) m ρ c (Proc.devRef .tc main_v6) = dstSl (m ((c.tc : Thread nD τ).loc main_arg1)) := by
  show after hostOps1 (W4 m ρ c) _ = _; rw [tail1_keep_v6, W4_v6, W3_v6]
theorem W5_v15 : W5 (F := Ideal) m ρ c (Proc.devRef .tc main_v15) = dinvColOf (dstSl (m ((c.tc : Thread nD τ).loc main_arg1))) := by
  show after hostOps1 (W4 m ρ c) _ = _; rw [tail1_keep_v15, W4_v15, W3_v15]
theorem W5_arg4 : W5 (F := Ideal) m ρ c (Proc.devRef .tc main_arg4) = m ((c.tc : Thread nD τ).loc main_arg4) := by
  show after hostOps1 (W4 m ρ c) _ = _; rw [tail1_keep_arg4, W4_arg4, W3_arg4]
theorem W5_arg5 : W5 (F := Ideal) m ρ c (Proc.devRef .tc main_arg5) = m ((c.tc : Thread nD τ).loc main_arg5) := by
  show after hostOps1 (W4 m ρ c) _ = _; rw [tail1_keep_arg5, W4_arg5, W3_arg5]

/-- The second region's feature input: the first layer's host tail of the first region's output. -/
theorem W5_v31 : W5 (F := Ideal) m ρ c (Proc.devRef .tc main_v31)
    = tail256 ((dat0 (V3 m ρ) c).arrAt 3 cfg0.N) (m ((c.tc : Thread nD τ).loc main_arg3))
        (srcSl (m ((c.tc : Thread nD τ).loc main_arg1))) (dstSl (m ((c.tc : Thread nD τ).loc main_arg1)))
        (dinvColOf (dstSl (m ((c.tc : Thread nD τ).loc main_arg1)))) := by
  show after hostOps1 (W4 m ρ c) _ = _
  rw [tail1_v31, W4_v16, W4_arg3, W3_arg3, W4_v5, W3_v5, W4_v6, W3_v6, W4_v15, W3_v15]

/-- THE RESULT BUFFER after the last stretch: the second layer's host tail of the second region's output. -/
theorem W7_v47 : W7 (F := Ideal) m ρ c (Proc.devRef .tc main_v47)
    = tail128 ((dat1 (V5 m ρ) c).arrAt 3 cfg1.N) (m ((c.tc : Thread nD τ).loc main_arg5))
        (srcSl (m ((c.tc : Thread nD τ).loc main_arg1))) (dstSl (m ((c.tc : Thread nD τ).loc main_arg1)))
        (dinvColOf (dstSl (m ((c.tc : Thread nD τ).loc main_arg1)))) := by
  show after hostOps2 (W6 m ρ c) _ = _
  rw [tail2_v47, W6_v32, W6_arg5, W5_arg5, W6_v5, W5_v5, W6_v6, W5_v6, W6_v15, W5_v15]

end Cert.KernelIdeal.Fold

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.Region0.lean ====
/-
  REGION 0, FROM BLOCKS TO THE ARRAY.

  The first matrix-unit region works on ten row blocks of 1000 rows. At each block it multiplies every row of the
  block of `main_arg0` by that row's entry of the column `main_v15`, and takes the matrix product of the result with
  the whole of `main_arg2`, accumulated into a zero block. Read at the ideal values, a change of float format is the
  identity and the accumulated product is the plain sum of products, so the block written at a point is the
  corresponding 1000 rows of ONE function of the three arrays as the region finds them: the matrix product of the
  row-scaled `main_arg0` with `main_arg2`. The ten blocks tile the 10000 rows, so after the last point the output
  array IS that function (`region0_array`).

  The steps: the block written at a point as a product of the point's input blocks (`block0`); each input block
  read as the rows of its array that the point names (`rowBlock0_apply`, `weightBlock0_apply`, `scaleBlock0_apply`);
  hence an entry of the block is the entry of the whole product at the block's place (`blockEntry0`, `flushed0_eq`);
  row `r` lies in the block of point `r / 1000` (`cover0`); the array (`region0_array`).
-/
import proofs.«126754_j27788438405708_2_alg».proof.Proof.Gen.KernelIdeal.Frame
import proofs.«126754_j27788438405708_2_alg».proof.Proof.LibMatProd
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open Cert.Linear

/-- The zero offsets of a rank-2 block, as the constant function. -/
theorem zero2 : (![0, 0] : Fin 2 → Nat) = fun _ => 0 := funext fun a => by fin_cases a <;> rfl

/-! ## The block written at a point -/

/-- The region's dimension record contracts the left operand's columns with the right operand's rows and keeps the
    other two axes in order. -/
theorem contracts0 : Contracts (R := 1000) (K := 512) (N := 256) dot_S1000x512_S512x256_S1000x256_1_0_0_1_n_n where
  rank := rfl
  size := rfl
  lhs0 := fun i q => by
    unfold DotDims.lhsIdx
    rw [dif_neg (show ¬(0 : Fin 2) ∈ dot_S1000x512_S512x256_S1000x256_1_0_0_1_n_n.lhsBatch by decide),
      dif_pos (show (0 : Fin 2) ∈ dot_S1000x512_S512x256_S1000x256_1_0_0_1_n_n.lhsNonContracting by decide)]
    rfl
  lhs1 := fun i q => dot_S1000x512_S512x256_S1000x256_1_0_0_1_n_n.lhsIdx_val_of_single rfl i q
  rhs0 := fun i q => dot_S1000x512_S512x256_S1000x256_1_0_0_1_n_n.rhsIdx_val_of_single rfl i q
  rhs1 := fun i q => by
    unfold DotDims.rhsIdx
    rw [dif_neg (show ¬(1 : Fin 2) ∈ dot_S1000x512_S512x256_S1000x256_1_0_0_1_n_n.rhsBatch by decide),
      dif_pos (show (1 : Fin 2) ∈ dot_S1000x512_S512x256_S1000x256_1_0_0_1_n_n.rhsNonContracting by decide)]
    rfl

/-- The scale column broadcast along the rows, read at row `p` and column `k`: the column's entry of row `p`. -/
theorem scaleCol0_apply (x2 : Vec Ideal S1000x1 .f32) (p : Fin 1000) (k : Fin 512) :
    broadcastTo S1000x512 (shapeCast S1000x1 x2 shapeCasts_S1000x1_S1000x1) broadcasts_S1000x1_S1000x512 (ix2 p k)
      = x2 (ix2 p (0 : Fin 1)) := by
  rw [shapeCast_self]
  refine broadcastTo_apply x2 _ (ix2 p k) (ix2 p (0 : Fin 1)) fun a => ?_
  match a with
  | ⟨0, _⟩ => rfl
  | ⟨1, _⟩ => rfl

/-- A block's product: the rows of `x0`, each scaled by its entry of the column `x2`, against `x1`. -/
abbrev scaledBlockProd0 (x0 : S1000x512.Idx → EReal) (x1 : S512x256.Idx → EReal) (x2 : S1000x1.Idx → EReal) :
    S1000x256.Idx → EReal :=
  matProd (R := 1000) (K := 512) (N := 256) (fun i => x0 i * x2 (ix2 (i 0) (0 : Fin 1))) x1

/-- What the body leaves in the output's staging buffer, from the input windows' blocks: that product. The one store
    covers the buffer; the loads read the whole blocks; the changes of float format are the identity; the product
    accumulated into the zero block is the sum of products. -/
theorem block0 (x0 : Vec Ideal S1000x512 .f32) (x1 : Vec Ideal S512x256 .f32) (x2 : Vec Ideal S1000x1 .f32) :
    Gen.out0_3 x0 x1 x2 = scaledBlockProd0 x0 x1 x2 := by
  unfold Gen.out0_3
  rw [View.canon_unit_zero zero2]
  simp only [View.ld_unit_zero (S := S1000x512) zero2, View.ld_unit_zero (S := S512x256) zero2,
    View.ld_unit_zero (S := S1000x1) zero2]
  unfold Gen.k0_pay1
  dsimp only
  refine (matmul_zero_eq contracts0 none _ _).trans ?_
  refine congrArg₂ (matProd (R := 1000) (K := 512) (N := 256)) (funext fun i => ?_) (funext fun i => ?_)
  · obtain ⟨p, k, rfl⟩ : ∃ (p : Fin 1000) (k : Fin 512), i = ix2 p k := ⟨i 0, i 1, eq_ix2 i⟩
    rw [truncf_apply, mulf_apply, scaleCol0_apply]
  · rw [truncf_apply]

/-! ## The whole-array function, and the input blocks as rows of their arrays -/

variable (V : (c : Dev nD) → (b : Ref sig .tc) → Buf (Elt Ideal) ((c : Thread nD τ).loc b))

/-- The whole product: the rows of `A`, each scaled by its entry of the column `s`, against `W`. -/
abbrev scaledProd0 (A : S10000x512.Idx → EReal) (W : S512x256.Idx → EReal) (s : S10000x1.Idx → EReal) :
    S10000x256.Idx → EReal :=
  matProd (R := 10000) (K := 512) (N := 256) (fun i => A i * s (ix2 (i 0) (0 : Fin 1))) W

/-- The index maps over the ten points: the two row-blocked inputs move with the output's row block, which is the
    point's number; every other block index is zero. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) = t.val ∧ win0_3.index t (1 : Fin 2) = 0 :=
  (by decide +kernel : ∀ t : Fin grid0.N, _)

/-- Point `t`'s block of `main_arg0` is its rows `1000 t … 1000 t + 999`. -/
theorem rowBlock0_apply (c : Dev nD) (t : Fin cfg0.N) (y : S1000x512.Idx) (k : S10000x512.Idx)
    (hk0 : (k 0).val = t.val * 1000 + (y 0).val) (hk1 : (k 1).val = (y 1).val) :
    (Gen.iblk0 V c 0 t : Vec Ideal S1000x512 .f32) y = (V c main_arg0 : S10000x512.Idx → EReal) k := by
  obtain ⟨e00, e01, e10, e11, e20, e21, e30, e31⟩ := idx_facts0 t
  unfold Gen.iblk0
  rw [View.read_apply]
  show V c main_arg0 _ = V c main_arg0 _
  refine congrArg (V c main_arg0) (funext fun a => Fin.ext ?_)
  match a with
  | ⟨0, _⟩ => show win0_0.index t (0 : Fin 2) * 1000 + 1 * (y 0).val = (k 0).val; rw [e00, e30, hk0]; omega
  | ⟨1, _⟩ => show win0_0.index t (1 : Fin 2) * 512 + 1 * (y 1).val = (k 1).val; rw [e01, hk1]; omega

/-- Every point's block of `main_arg2` is the whole array. -/
theorem weightBlock0_apply (c : Dev nD) (t : Fin cfg0.N) (y : S512x256.Idx) :
    (Gen.iblk0 V c 1 t : Vec Ideal S512x256 .f32) y = (V c main_arg2 : S512x256.Idx → EReal) y := by
  obtain ⟨e00, e01, e10, e11, e20, e21, e30, e31⟩ := idx_facts0 t
  unfold Gen.iblk0
  rw [View.read_apply]
  show V c main_arg2 _ = V c main_arg2 _
  refine congrArg (V c main_arg2) (funext fun a => Fin.ext ?_)
  match a with
  | ⟨0, _⟩ => show win0_1.index t (0 : Fin 2) * 512 + 1 * (y 0).val = (y 0).val; rw [e10]; omega
  | ⟨1, _⟩ => show win0_1.index t (1 : Fin 2) * 256 + 1 * (y 1).val = (y 1).val; rw [e11]; omega

/-- Point `t`'s block of the column `main_v15` is its rows `1000 t … 1000 t + 999`. -/
theorem scaleBlock0_apply (c : Dev nD) (t : Fin cfg0.N) (y : S1000x1.Idx) (k : S10000x1.Idx)
    (hk0 : (k 0).val = t.val * 1000 + (y 0).val) :
    (Gen.iblk0 V c 2 t : Vec Ideal S1000x1 .f32) y = (V c main_v15 : S10000x1.Idx → EReal) k := by
  obtain ⟨e00, e01, e10, e11, e20, e21, e30, e31⟩ := idx_facts0 t
  unfold Gen.iblk0
  rw [View.read_apply]
  show V c main_v15 _ = V c main_v15 _
  refine congrArg (V c main_v15) (funext fun a => Fin.ext ?_)
  match a with
  | ⟨0, _⟩ => show win0_2.index t (0 : Fin 2) * 1000 + 1 * (y 0).val = (k 0).val; rw [e20, e30, hk0]; omega
  | ⟨1, _⟩ =>
    show win0_2.index t (1 : Fin 2) * 1 + 1 * (y 1).val = (k 1).val
    have h1 : (y 1).val < 1 := (y 1).isLt
    have h2 : (k 1).val < 1 := (k 1).isLt
    rw [e21]; omega

/-! ## What a point writes back -/

/-- One entry of a block's product is the entry of the whole product that the block's place in the array names, when
    the block's operands are the arrays' rows at that place: the two sums run over the same products. -/
theorem blockEntry0 (x0 : S1000x512.Idx → EReal) (x1 : S512x256.Idx → EReal) (x2 : S1000x1.Idx → EReal)
    (A : S10000x512.Idx → EReal) (W : S512x256.Idx → EReal) (s : S10000x1.Idx → EReal)
    (j : S1000x256.Idx) (i : S10000x256.Idx) (T : Nat)
    (hi0 : (i 0).val = T * 1000 + (j 0).val) (hi1 : (i 1).val = (j 1).val)
    (h0 : ∀ (y : S1000x512.Idx) (k : S10000x512.Idx), (k 0).val = T * 1000 + (y 0).val → (k 1).val = (y 1).val → x0 y = A k)
    (h1 : ∀ y : S512x256.Idx, x1 y = W y)
    (h2 : ∀ (y : S1000x1.Idx) (k : S10000x1.Idx), (k 0).val = T * 1000 + (y 0).val → x2 y = s k) :
    scaledBlockProd0 x0 x1 x2 j = scaledProd0 A W s i := by
  unfold scaledBlockProd0 scaledProd0 matProd
  refine Finset.sum_congr rfl fun k _ => ?_
  show x0 (ix2 (j 0) k) * x2 (ix2 (j 0) (0 : Fin 1)) * x1 (ix2 k (j 1))
    = A (ix2 (i 0) k) * s (ix2 (i 0) (0 : Fin 1)) * W (ix2 k (i 1))
  rw [h0 (ix2 (j 0) k) (ix2 (i 0) k) hi0 rfl, h2 (ix2 (j 0) (0 : Fin 1)) (ix2 (i 0) (0 : Fin 1)) hi0, h1,
    show (ix2 k (j 1) : S512x256.Idx) = ix2 k (i 1) from congrArg (ix2 k) (Fin.ext hi1.symm)]
  rfl

/-- WHAT POINT `t` WRITES BACK is block `t` of the whole product of the arrays as the region finds them. -/
theorem flushed0_eq (c : Dev nD) (t : Fin cfg0.N) :
    (Gen.dat0 (F := Ideal) V c).flushed 3 t
      = ((cfg0.win 3).blk t).view.read (Elt Ideal) (scaledProd0 (V c main_arg0) (V c main_arg2) (V c main_v15)) := by
  show (cfg0.win 3).cut (grid0.coords t) ((Gen.dat0 V c).after 3 t) = _
  rw [Gen.after0_3, block0 (Gen.iblk0 V c 0 t) (Gen.iblk0 V c 1 t) (Gen.iblk0 V c 2 t)]
  obtain ⟨e00, e01, e10, e11, e20, e21, e30, e31⟩ := idx_facts0 t
  funext j
  show scaledBlockProd0 (Gen.iblk0 V c 0 t) (Gen.iblk0 V c 1 t) (Gen.iblk0 V c 2 t) j
    = scaledProd0 (V c main_arg0) (V c main_arg2) (V c main_v15) (((cfg0.win 3).blk t).view.emb j)
  have hj0 : ((((cfg0.win 3).blk t).view.emb j) 0).val = t.val * 1000 + (j 0).val := by
    show win0_3.index t (0 : Fin 2) * 1000 + 1 * (j 0).val = _
    rw [e30]; omega
  have hj1 : ((((cfg0.win 3).blk t).view.emb j) 1).val = (j 1).val := by
    show win0_3.index t (1 : Fin 2) * 256 + 1 * (j 1).val = _
    rw [e31]; omega
  exact blockEntry0 (Gen.iblk0 V c 0 t) (Gen.iblk0 V c 1 t) (Gen.iblk0 V c 2 t) (V c main_arg0) (V c main_arg2) (V c main_v15)
    j (((cfg0.win 3).blk t).view.emb j) t.val hj0 hj1
    (rowBlock0_apply V c t) (weightBlock0_apply V c t) (scaleBlock0_apply V c t)

/-! ## The blocks tile the array -/

/-- An index of the array is in point `t`'s block iff each coordinate is in the block's range on its axis. -/
theorem mem_block0 (t : Fin cfg0.N) (i : S10000x256.Idx) :
    i ∈ ((cfg0.win 3).blk t).view.set ↔ ∀ a : Fin 2, win0_3.index t a * S1000x256.size a ≤ (i a).val ∧ (i a).val < win0_3.index t a * S1000x256.size a + S1000x256.size a := by
  show i ∈ ((View.whole main_v16).slice (win0_3.rect t)).set ↔ _
  rw [View.set_slice_whole, Rect.mem_set_unit]
  exact Iff.rfl

/-- Every index of the array is in the block of the point its row names: row `r` in that of point `r / 1000`. -/
theorem cover0 (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  have hN : cfg0.N = 10 := Gen.N_0
  let t : Fin cfg0.N := ⟨(i 0).val / 1000, by rw [hN]; omega⟩
  obtain ⟨e00, e01, e10, e11, e20, e21, e30, e31⟩ := idx_facts0 t
  have ht : t.val = (i 0).val / 1000 := rfl
  refine ⟨t, Gen.flush0_3 t, ?_⟩
  rw [mem_block0]
  intro a
  match a with
  | ⟨0, _⟩ =>
    show win0_3.index t (0 : Fin 2) * 1000 ≤ (i 0).val ∧ (i 0).val < win0_3.index t (0 : Fin 2) * 1000 + 1000
    rw [e30, ht]; omega
  | ⟨1, _⟩ =>
    show win0_3.index t (1 : Fin 2) * 256 ≤ (i 1).val ∧ (i 1).val < win0_3.index t (1 : Fin 2) * 256 + 256
    rw [e31]; omega

/-! ## The array -/

/-- THE OUTPUT ARRAY OF REGION 0 after its ten points: the matrix product of `main_arg0`, each row scaled by its entry
    of the column `main_v15`, with `main_arg2` — the arrays as the region finds them. -/
theorem region0_array (c : Dev nD) :
    (Gen.dat0 (F := Ideal) V c).arrAt 3 cfg0.N
      = Cert.Linear.matProd (R := 10000) (K := 512) (N := 256)
          (fun i => @HMul.hMul EReal EReal EReal _ ((V c main_arg0 : S10000x512.Idx → EReal) i)
            ((V c main_v15 : S10000x1.Idx → EReal) (ValueIdx.ix2 (i 0) (0 : Fin 1))))
          (V c main_arg2 : S512x256.Idx → EReal) :=
  (Gen.dat0 (F := Ideal) V c).arrAt_eq_of_cover 3 (scaledProd0 (V c main_arg0) (V c main_arg2) (V c main_v15))
    (fun t _ => flushed0_eq V c t) cover0

end Cert.KernelIdeal.RegionValue

end
-- ==== Proof.Region1.lean ====
/-
  REGION 1, FROM BLOCKS TO THE ARRAY.

  The second matrix-unit region works on ten row blocks of 1000 rows. At each block it takes the entrywise maximum of
  the block of `main_v31` with zero, multiplies every row of the result by that row's entry of the column `main_v15`,
  and takes the matrix product with the whole of `main_arg4`, accumulated into a zero block. Read at the ideal values,
  a change of float format is the identity and the accumulated product is the plain sum of products, so the block
  written at a point is the corresponding 1000 rows of ONE function of the three arrays as the region finds them: the
  matrix product of the clamped, row-scaled `main_v31` with `main_arg4`. The ten blocks tile the 10000 rows, so after
  the last point the output array IS that function (`region1_array`). The zero the maximum is taken with stays the
  float word it is printed as; it is never evaluated.

  The steps: the block written at a point as a product of the point's input blocks (`block1`); each input block
  read as the rows of its array that the point names (`rowBlock1_apply`, `weightBlock1_apply`, `scaleBlock1_apply`);
  hence an entry of the block is the entry of the whole product at the block's place (`blockEntry1`, `flushed1_eq`);
  row `r` lies in the block of point `r / 1000` (`cover1`); the array (`region1_array`).
-/
import proofs.«126754_j27788438405708_2_alg».proof.Proof.Gen.KernelIdeal.Frame
import proofs.«126754_j27788438405708_2_alg».proof.Proof.LibMatProd
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open Cert.Linear

/-- The zero offsets of a rank-2 block, as the constant function. -/
theorem zeroOffsets1 : (![0, 0] : Fin 2 → Nat) = fun _ => 0 := funext fun a => by fin_cases a <;> rfl

/-! ## The block written at a point -/

/-- The region's dimension record contracts the left operand's columns with the right operand's rows and keeps the
    other two axes in order. -/
theorem contracts1 : Contracts (R := 1000) (K := 256) (N := 128) dot_S1000x256_S256x128_S1000x128_1_0_0_1_n_n where
  rank := rfl
  size := rfl
  lhs0 := fun i q => by
    unfold DotDims.lhsIdx
    rw [dif_neg (show ¬(0 : Fin 2) ∈ dot_S1000x256_S256x128_S1000x128_1_0_0_1_n_n.lhsBatch by decide),
      dif_pos (show (0 : Fin 2) ∈ dot_S1000x256_S256x128_S1000x128_1_0_0_1_n_n.lhsNonContracting by decide)]
    rfl
  lhs1 := fun i q => dot_S1000x256_S256x128_S1000x128_1_0_0_1_n_n.lhsIdx_val_of_single rfl i q
  rhs0 := fun i q => dot_S1000x256_S256x128_S1000x128_1_0_0_1_n_n.rhsIdx_val_of_single rfl i q
  rhs1 := fun i q => by
    unfold DotDims.rhsIdx
    rw [dif_neg (show ¬(1 : Fin 2) ∈ dot_S1000x256_S256x128_S1000x128_1_0_0_1_n_n.rhsBatch by decide),
      dif_pos (show (1 : Fin 2) ∈ dot_S1000x256_S256x128_S1000x128_1_0_0_1_n_n.rhsNonContracting by decide)]
    rfl

/-- The scale column broadcast along the rows, read at row `p` and column `k`: the column's entry of row `p`. -/
theorem scaleCol1_apply (x2 : Vec Ideal S1000x1 .f32) (p : Fin 1000) (k : Fin 256) :
    broadcastTo S1000x256 (shapeCast S1000x1 x2 shapeCasts_S1000x1_S1000x1) broadcasts_S1000x1_S1000x256 (ix2 p k)
      = x2 (ix2 p (0 : Fin 1)) := by
  rw [shapeCast_self]
  refine broadcastTo_apply x2 _ (ix2 p k) (ix2 p (0 : Fin 1)) fun a => ?_
  match a with
  | ⟨0, _⟩ => rfl
  | ⟨1, _⟩ => rfl

/-- A block's product: the rows of `x0` clamped below at zero, each scaled by its entry of the column `x2`, against `x1`. -/
abbrev scaledBlockProd1 (x0 : S1000x256.Idx → EReal) (x1 : S256x128.Idx → EReal) (x2 : S1000x1.Idx → EReal) :
    S1000x128.Idx → EReal :=
  matProd (R := 1000) (K := 256) (N := 128)
    (fun i => max (x0 i) (Ideal.ofBits .f32 0x00000000#32) * x2 (ix2 (i 0) (0 : Fin 1))) x1

/-- What the body leaves in the output's staging buffer, from the input windows' blocks: that product. The one store
    covers the buffer; the loads read the whole blocks; the changes of float format are the identity; the zero splat
    reads the zero word everywhere; the product accumulated into the zero block is the sum of products. -/
theorem block1 (x0 : Vec Ideal S1000x256 .f32) (x1 : Vec Ideal S256x128 .f32) (x2 : Vec Ideal S1000x1 .f32) :
    Gen.out1_3 x0 x1 x2 = scaledBlockProd1 x0 x1 x2 := by
  unfold Gen.out1_3
  rw [View.canon_unit_zero zeroOffsets1]
  simp only [View.ld_unit_zero (S := S1000x256) zeroOffsets1, View.ld_unit_zero (S := S256x128) zeroOffsets1,
    View.ld_unit_zero (S := S1000x1) zeroOffsets1]
  unfold Gen.k1_pay1
  dsimp only
  refine (matmul_zero_eq contracts1 none _ _).trans ?_
  refine congrArg₂ (matProd (R := 1000) (K := 256) (N := 128)) (funext fun i => ?_) (funext fun i => ?_)
  · obtain ⟨p, k, rfl⟩ : ∃ (p : Fin 1000) (k : Fin 256), i = ix2 p k := ⟨i 0, i 1, eq_ix2 i⟩
    rw [truncf_apply, mulf_apply, scaleCol1_apply, maximumf_apply, shapeCast_self, broadcast_apply]
    rfl
  · rw [truncf_apply]

/-! ## The whole-array function, and the input blocks as rows of their arrays -/

variable (V : (c : Dev nD) → (b : Ref sig .tc) → Buf (Elt Ideal) ((c : Thread nD τ).loc b))

/-- The whole product: the rows of `A` clamped below at zero, each scaled by its entry of the column `s`, against `W`. -/
abbrev scaledProd1 (A : S10000x256.Idx → EReal) (W : S256x128.Idx → EReal) (s : S10000x1.Idx → EReal) :
    S10000x128.Idx → EReal :=
  matProd (R := 10000) (K := 256) (N := 128)
    (fun i => max (A i) (Ideal.ofBits .f32 0x00000000#32) * s (ix2 (i 0) (0 : Fin 1))) W

/-- The index maps over the ten points: the two row-blocked inputs move with the output's row block, which is the
    point's number; every other block index is zero. -/
theorem idx_facts1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = win1_3.index t (0 : Fin 2) ∧ win1_2.index t (1 : Fin 2) = 0
    ∧ win1_3.index t (0 : Fin 2) = t.val ∧ win1_3.index t (1 : Fin 2) = 0 :=
  (by decide +kernel : ∀ t : Fin grid1.N, _)

/-- Point `t`'s block of `main_v31` is its rows `1000 t … 1000 t + 999`. -/
theorem rowBlock1_apply (c : Dev nD) (t : Fin cfg1.N) (y : S1000x256.Idx) (k : S10000x256.Idx)
    (hk0 : (k 0).val = t.val * 1000 + (y 0).val) (hk1 : (k 1).val = (y 1).val) :
    (Gen.iblk1 V c 0 t : Vec Ideal S1000x256 .f32) y = (V c main_v31 : S10000x256.Idx → EReal) k := by
  obtain ⟨e00, e01, e10, e11, e20, e21, e30, e31⟩ := idx_facts1 t
  unfold Gen.iblk1
  rw [View.read_apply]
  show V c main_v31 _ = V c main_v31 _
  refine congrArg (V c main_v31) (funext fun a => Fin.ext ?_)
  match a with
  | ⟨0, _⟩ => show win1_0.index t (0 : Fin 2) * 1000 + 1 * (y 0).val = (k 0).val; rw [e00, e30, hk0]; omega
  | ⟨1, _⟩ => show win1_0.index t (1 : Fin 2) * 256 + 1 * (y 1).val = (k 1).val; rw [e01, hk1]; omega

/-- Every point's block of `main_arg4` is the whole array. -/
theorem weightBlock1_apply (c : Dev nD) (t : Fin cfg1.N) (y : S256x128.Idx) :
    (Gen.iblk1 V c 1 t : Vec Ideal S256x128 .f32) y = (V c main_arg4 : S256x128.Idx → EReal) y := by
  obtain ⟨e00, e01, e10, e11, e20, e21, e30, e31⟩ := idx_facts1 t
  unfold Gen.iblk1
  rw [View.read_apply]
  show V c main_arg4 _ = V c main_arg4 _
  refine congrArg (V c main_arg4) (funext fun a => Fin.ext ?_)
  match a with
  | ⟨0, _⟩ => show win1_1.index t (0 : Fin 2) * 256 + 1 * (y 0).val = (y 0).val; rw [e10]; omega
  | ⟨1, _⟩ => show win1_1.index t (1 : Fin 2) * 128 + 1 * (y 1).val = (y 1).val; rw [e11]; omega

/-- Point `t`'s block of the column `main_v15` is its rows `1000 t … 1000 t + 999`. -/
theorem scaleBlock1_apply (c : Dev nD) (t : Fin cfg1.N) (y : S1000x1.Idx) (k : S10000x1.Idx)
    (hk0 : (k 0).val = t.val * 1000 + (y 0).val) :
    (Gen.iblk1 V c 2 t : Vec Ideal S1000x1 .f32) y = (V c main_v15 : S10000x1.Idx → EReal) k := by
  obtain ⟨e00, e01, e10, e11, e20, e21, e30, e31⟩ := idx_facts1 t
  unfold Gen.iblk1
  rw [View.read_apply]
  show V c main_v15 _ = V c main_v15 _
  refine congrArg (V c main_v15) (funext fun a => Fin.ext ?_)
  match a with
  | ⟨0, _⟩ => show win1_2.index t (0 : Fin 2) * 1000 + 1 * (y 0).val = (k 0).val; rw [e20, e30, hk0]; omega
  | ⟨1, _⟩ =>
    show win1_2.index t (1 : Fin 2) * 1 + 1 * (y 1).val = (k 1).val
    have h1 : (y 1).val < 1 := (y 1).isLt
    have h2 : (k 1).val < 1 := (k 1).isLt
    rw [e21]; omega

/-! ## What a point writes back -/

/-- One entry of a block's product is the entry of the whole product that the block's place in the array names, when
    the block's operands are the arrays' rows at that place: the two sums run over the same products. -/
theorem blockEntry1 (x0 : S1000x256.Idx → EReal) (x1 : S256x128.Idx → EReal) (x2 : S1000x1.Idx → EReal)
    (A : S10000x256.Idx → EReal) (W : S256x128.Idx → EReal) (s : S10000x1.Idx → EReal)
    (j : S1000x128.Idx) (i : S10000x128.Idx) (T : Nat)
    (hi0 : (i 0).val = T * 1000 + (j 0).val) (hi1 : (i 1).val = (j 1).val)
    (h0 : ∀ (y : S1000x256.Idx) (k : S10000x256.Idx), (k 0).val = T * 1000 + (y 0).val → (k 1).val = (y 1).val → x0 y = A k)
    (h1 : ∀ y : S256x128.Idx, x1 y = W y)
    (h2 : ∀ (y : S1000x1.Idx) (k : S10000x1.Idx), (k 0).val = T * 1000 + (y 0).val → x2 y = s k) :
    scaledBlockProd1 x0 x1 x2 j = scaledProd1 A W s i := by
  unfold scaledBlockProd1 scaledProd1 matProd
  refine Finset.sum_congr rfl fun k _ => ?_
  show max (x0 (ix2 (j 0) k)) (Ideal.ofBits .f32 0x00000000#32) * x2 (ix2 (j 0) (0 : Fin 1)) * x1 (ix2 k (j 1))
    = max (A (ix2 (i 0) k)) (Ideal.ofBits .f32 0x00000000#32) * s (ix2 (i 0) (0 : Fin 1)) * W (ix2 k (i 1))
  rw [h0 (ix2 (j 0) k) (ix2 (i 0) k) hi0 rfl, h2 (ix2 (j 0) (0 : Fin 1)) (ix2 (i 0) (0 : Fin 1)) hi0, h1,
    show (ix2 k (j 1) : S256x128.Idx) = ix2 k (i 1) from congrArg (ix2 k) (Fin.ext hi1.symm)]
  rfl

/-- WHAT POINT `t` WRITES BACK is block `t` of the whole product of the arrays as the region finds them. -/
theorem flushed1_eq (c : Dev nD) (t : Fin cfg1.N) :
    (Gen.dat1 (F := Ideal) V c).flushed 3 t
      = ((cfg1.win 3).blk t).view.read (Elt Ideal) (scaledProd1 (V c main_v31) (V c main_arg4) (V c main_v15)) := by
  show (cfg1.win 3).cut (grid1.coords t) ((Gen.dat1 V c).after 3 t) = _
  rw [Gen.after1_3, block1 (Gen.iblk1 V c 0 t) (Gen.iblk1 V c 1 t) (Gen.iblk1 V c 2 t)]
  obtain ⟨e00, e01, e10, e11, e20, e21, e30, e31⟩ := idx_facts1 t
  funext j
  show scaledBlockProd1 (Gen.iblk1 V c 0 t) (Gen.iblk1 V c 1 t) (Gen.iblk1 V c 2 t) j
    = scaledProd1 (V c main_v31) (V c main_arg4) (V c main_v15) (((cfg1.win 3).blk t).view.emb j)
  have hj0 : ((((cfg1.win 3).blk t).view.emb j) 0).val = t.val * 1000 + (j 0).val := by
    show win1_3.index t (0 : Fin 2) * 1000 + 1 * (j 0).val = _
    rw [e30]; omega
  have hj1 : ((((cfg1.win 3).blk t).view.emb j) 1).val = (j 1).val := by
    show win1_3.index t (1 : Fin 2) * 128 + 1 * (j 1).val = _
    rw [e31]; omega
  exact blockEntry1 (Gen.iblk1 V c 0 t) (Gen.iblk1 V c 1 t) (Gen.iblk1 V c 2 t) (V c main_v31) (V c main_arg4) (V c main_v15)
    j (((cfg1.win 3).blk t).view.emb j) t.val hj0 hj1
    (rowBlock1_apply V c t) (weightBlock1_apply V c t) (scaleBlock1_apply V c t)

/-! ## The blocks tile the array -/

/-- An index of the array is in point `t`'s block iff each coordinate is in the block's range on its axis. -/
theorem mem_block1 (t : Fin cfg1.N) (i : S10000x128.Idx) :
    i ∈ ((cfg1.win 3).blk t).view.set ↔ ∀ a : Fin 2, win1_3.index t a * S1000x128.size a ≤ (i a).val ∧ (i a).val < win1_3.index t a * S1000x128.size a + S1000x128.size a := by
  show i ∈ ((View.whole main_v32).slice (win1_3.rect t)).set ↔ _
  rw [View.set_slice_whole, Rect.mem_set_unit]
  exact Iff.rfl

/-- Every index of the array is in the block of the point its row names: row `r` in that of point `r / 1000`. -/
theorem cover1 (i : S10000x128.Idx) :
    ∃ t : Fin cfg1.N, (cfg1.win 3).flush t = true ∧ i ∈ ((cfg1.win 3).blk t).view.set := by
  have hi0 : (i 0).val < 10000 := (i 0).isLt
  have hi1 : (i 1).val < 128 := (i 1).isLt
  have hN : cfg1.N = 10 := Gen.N_1
  let t : Fin cfg1.N := ⟨(i 0).val / 1000, by rw [hN]; omega⟩
  obtain ⟨e00, e01, e10, e11, e20, e21, e30, e31⟩ := idx_facts1 t
  have ht : t.val = (i 0).val / 1000 := rfl
  refine ⟨t, Gen.flush1_3 t, ?_⟩
  rw [mem_block1]
  intro a
  match a with
  | ⟨0, _⟩ =>
    show win1_3.index t (0 : Fin 2) * 1000 ≤ (i 0).val ∧ (i 0).val < win1_3.index t (0 : Fin 2) * 1000 + 1000
    rw [e30, ht]; omega
  | ⟨1, _⟩ =>
    show win1_3.index t (1 : Fin 2) * 128 ≤ (i 1).val ∧ (i 1).val < win1_3.index t (1 : Fin 2) * 128 + 128
    rw [e31]; omega

/-! ## The array -/

/-- THE OUTPUT ARRAY OF REGION 1 after its ten points: the matrix product of `main_v31` clamped below at zero, each row
    scaled by its entry of the column `main_v15`, with `main_arg4` — the arrays as the region finds them. -/
theorem region1_array (c : Dev nD) :
    (Gen.dat1 (F := Ideal) V c).arrAt 3 cfg1.N
      = Cert.Linear.matProd (R := 10000) (K := 256) (N := 128)
          (fun i => @HMul.hMul EReal EReal EReal _
            (@max EReal _ ((V c main_v31 : S10000x256.Idx → EReal) i) (Ideal.ofBits .f32 0x00000000#32))
            ((V c main_v15 : S10000x1.Idx → EReal) (ValueIdx.ix2 (i 0) (0 : Fin 1))))
          (V c main_arg4 : S256x128.Idx → EReal) :=
  (Gen.dat1 (F := Ideal) V c).arrAt_eq_of_cover 3 (scaledProd1 (V c main_v31) (V c main_arg4) (V c main_v15))
    (fun t _ => flushed1_eq V c t) cover1

end Cert.KernelIdeal.RegionValue

end
-- ==== Proof.KSpec.lean ====
/-
  The idealized kernel's result as one function of the six arguments.

  Each matrix-unit region multiplies a table whose row `n` has first been scaled by the `n`-th inverse square root
  (the second region after a `max(·, 0)`) with a weight matrix; each host tail then aggregates the product rows
  over the edges, scales again and adds the bias.  `kernelValue` composes the two layers.
-/
import proofs.«126754_j27788438405708_2_alg».proof.Proof.KTerm
import proofs.«126754_j27788438405708_2_alg».proof.Proof.LibMatProd

noncomputable section

namespace Cert.KernelIdeal.Term

open Cert.KernelIdeal Cert.KernelIdeal.Gen Idealize.ShloMosaic Idealize.ShloMosaic.ValueIdx Cert.Linear

/-- The first region's output: `(A ⊙ s) · W`, row `n` of `A` scaled by `s[n, 0]`. -/
def region0Out (A : S10000x512.Idx → EReal) (W : S512x256.Idx → EReal) (s : S10000x1.Idx → EReal) : S10000x256.Idx → EReal :=
  matProd (R := 10000) (K := 512) (N := 256) (fun i => A i * s (ix2 (i 0) (0 : Fin 1))) W

/-- The second region's output: `(max(A, 0) ⊙ s) · W`. -/
def region1Out (A : S10000x256.Idx → EReal) (W : S256x128.Idx → EReal) (s : S10000x1.Idx → EReal) : S10000x128.Idx → EReal :=
  matProd (R := 10000) (K := 256) (N := 128) (fun i => max (A i) (Ideal.ofBits .f32 0x00000000#32) * s (ix2 (i 0) (0 : Fin 1))) W

/-- The kernel's result. -/
def kernelValue (x : FVec Ideal S10000x512 .f32) (ei : IVec S2x320000 32) (w1 : FVec Ideal S512x256 .f32) (b1 : FVec Ideal S256 .f32)
    (w2 : FVec Ideal S256x128 .f32) (b2 : FVec Ideal S128 .f32) : FVec Ideal S10000x128 .f32 :=
  tail128
    (region1Out (tail256 (region0Out x w1 (dinvColOf (dstSl ei))) b1 (srcSl ei) (dstSl ei) (dinvColOf (dstSl ei))) w2 (dinvColOf (dstSl ei)))
    b2 (srcSl ei) (dstSl ei) (dinvColOf (dstSl ei))

end Cert.KernelIdeal.Term

end
-- ==== Proof.KValue.lean ====
/-
  The idealized kernel's run, with its result as `kernelValue` of the six arguments.

  The result buffer ends at the last boundary's contents, which the boundary walk reads as the second layer's host
  tail of the second region's output array; each region's output array is its blocks put together — one whole
  matrix product of the row-scaled feature table it found on entry with the weight matrix; and the arrays the
  regions find on entry are the launch memory's arguments and the terms the earlier stretches computed.
-/
import proofs.«126754_j27788438405708_2_alg».proof.Proof.KRun
import proofs.«126754_j27788438405708_2_alg».proof.Proof.KFold
import proofs.«126754_j27788438405708_2_alg».proof.Proof.Region0
import proofs.«126754_j27788438405708_2_alg».proof.Proof.Region1
import proofs.«126754_j27788438405708_2_alg».proof.Proof.KSpec

set_option maxRecDepth 16384

noncomputable section

namespace Cert.KernelIdeal.RunValue

open Cert.KernelIdeal Cert.KernelIdeal.Gen Cert.KernelIdeal.Term Cert.KernelIdeal.Fold Cert.KernelIdeal.RegionValue
open Idealize.ShloMosaic Idealize.ShloMosaic.TcCoe Idealize.SL.Sem

variable (m : (ℓ : Loc nD τ sig) → Buf (Elt Ideal) ℓ) (ρ : Dev nD → PrngReg)

/-- The result buffer at the last boundary is `kernelValue` of the launch memory's arguments. -/
theorem W7_value (c : Dev nD) : W7 (F := Ideal) m ρ c (Proc.devRef .tc main_v47)
    = kernelValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [W7_v47, region1_array (V5 m ρ) c]
  show tail128 (region1Out (W5 m ρ c (Proc.devRef .tc main_v31)) (W5 m ρ c (Proc.devRef .tc main_arg4)) (W5 m ρ c (Proc.devRef .tc main_v15))) _ _ _ _ = _
  rw [W5_v31, W5_arg4, W5_v15, region0_array (V3 m ρ) c]
  show tail128 (region1Out (tail256 (region0Out (W3 m ρ c (Proc.devRef .tc main_arg0)) (W3 m ρ c (Proc.devRef .tc main_arg2)) (W3 m ρ c (Proc.devRef .tc main_v15))) _ _ _ _) _ _) _ _ _ _ = _
  rw [W3_arg0, W3_arg2, W3_v15]
  rfl

/-- Every weakly fair execution of @main terminates, nothing faulting, with the result at `kernelValue` of the
    arguments and the arguments as launched. -/
theorem run_value : θ_run defs (onTc (τ := τ) (main (F := Ideal))) ⟨m, fun _ => 0, ρ⟩ (fun r => ∀ c : Dev nD,
      r.2.mem ((c.tc : Thread nD τ).loc main_v47)
        = kernelValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W7_value m ρ c), (h c).2⟩) (run_named m ρ)

end Cert.KernelIdeal.RunValue

end
-- ==== Proof.RefOps.lean ====
/-
  The idealized reference's @main as seven consecutive lines of host operations, and its run.

  @main is a straight line of 119 host operations (a called function's operations stand in its call's place).
  It is cut here where its mathematics cuts it: A1 — the edge lists with the self-loops appended and the first matrix
  product; A2 — the graph quantities (degree and its inverse square root); B — the first layer's gathers, edge
  products, scatter and bias; C — the `max(·, 0)` and the second matrix product; D1, D2 — the edge lists and the graph
  quantities again, as the second layer recomputes them; E — the second layer.  Every weakly fair execution
  terminates with each buffer at the fold of the seven lines over the launch contents, one line after the other.
-/
import proofs.«126754_j27788438405708_2_alg».proof.Proof.Gen.ReferenceIdeal
import proofs.«126754_j27788438405708_2_alg».proof.Proof.LibAfter
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo
open Cert.LibAfter

variable {F : FTy → Type} [FloatOps F]

/-- Operations 0 … 7 of @main, in order. -/
abbrev opsA1 : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    binary main_arg0 main_arg2 main_v4 ((fun l r => Host.dotGeneral dot_S10000x512_S512x256_S10000x256_1_0_0_1_n_n none l r) : (⟨S10000x512, .f32⟩ : BufTy).Contents (Elt F) → (⟨S512x256, .f32⟩ : BufTy).Contents (Elt F) → (⟨S10000x256, .f32⟩ : BufTy).Contents (Elt F)),
    nullary main_v5 (iotaInDim S10000 32 0),
    binary main_v1 main_v5 main_v6 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    binary main_v3 main_v5 main_v7 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)) ]
theorem opsA1_sub : (opsA1 : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub ..⟩
theorem opsA1_fresh : (opsA1 : List (HloOp τ sig (Elt F))).Forall fun op => op.fresh = ∅ := by
  all_fresh opsA1

/-- Operations 8 … 21 of @main, in order. -/
abbrev opsA2 : List (HloOp τ sig (Elt F)) :=
  [ nullary main_cst (constant S_ .f32 0x3F800000#32),
    unary main_cst main_v8 (broadcastInDim S330000 ![] bcast_S_S330000 : (⟨S_, .f32⟩ : BufTy).Contents (Elt F) → (⟨S330000, .f32⟩ : BufTy).Contents (Elt F)),
    nullary main_cst_0 (constant S_ .f32 0x00000000#32),
    unary main_cst_0 main_v9 (broadcastInDim S10000 ![] bcast_S_S10000 : (⟨S_, .f32⟩ : BufTy).Contents (Elt F) → (⟨S10000, .f32⟩ : BufTy).Contents (Elt F)),
    unary main_v7 main_v10 (broadcastInDim S330000x1 ![0] bcast_S330000_S330000x1_0 : (⟨S330000, .i32⟩ : BufTy).Contents (Elt F) → (⟨S330000x1, .i32⟩ : BufTy).Contents (Elt F)),
    ternary main_v9 main_v10 main_v8 main_v11 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_1 (constant S_ .f32 0x00000000#32),
    unary main_cst_1 main_v12 (broadcastInDim S10000 ![] bcast_S_S10000 : (⟨S_, .f32⟩ : BufTy).Contents (Elt F) → (⟨S10000, .f32⟩ : BufTy).Contents (Elt F)),
    binary main_v11 main_v12 main_v13 (cmpf .ogt : (⟨S10000, .f32⟩ : BufTy).Contents (Elt F) → (⟨S10000, .f32⟩ : BufTy).Contents (Elt F) → (⟨S10000, .i1⟩ : BufTy).Contents (Elt F)),
    unary main_v11 main_v14 (Host.rsqrt : (⟨S10000, .f32⟩ : BufTy).Contents (Elt F) → (⟨S10000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v13) (TRef.of (T := ⟨S10000, .f32⟩) main_v14) (TRef.of (T := ⟨S10000, .f32⟩) main_call0_v1) (TRef.of (T := ⟨S10000, .f32⟩) main_v15) select ]
theorem opsA2_sub : (opsA2 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩
theorem opsA2_fresh : (opsA2 : List (HloOp τ sig (Elt F))).Forall fun op => op.fresh = ∅ := by
  all_fresh opsA2

/-- Operations 22 … 59 of @main, in order. -/
abbrev opsB : List (HloOp τ sig (Elt F)) :=
  [ nullary main_c (constantI S_ 32 0#32),
    unary main_c main_v16 (broadcastInDim S330000 ![] bcast_S_S330000 : (⟨S_, .i32⟩ : BufTy).Contents (Elt F) → (⟨S330000, .i32⟩ : BufTy).Contents (Elt F)),
    binary main_v6 main_v16 main_v17 (cmpi .slt : (⟨S330000, .i32⟩ : BufTy).Contents (Elt F) → (⟨S330000, .i32⟩ : BufTy).Contents (Elt F) → (⟨S330000, .i1⟩ : BufTy).Contents (Elt F)),
    nullary main_c_3 (constantI S_ 32 10000#32),
    unary main_c_3 main_v18 (broadcastInDim S330000 ![] bcast_S_S330000 : (⟨S_, .i32⟩ : BufTy).Contents (Elt F) → (⟨S330000, .i32⟩ : BufTy).Contents (Elt F)),
    binary main_v6 main_v18 main_v19 (addi : (⟨S330000, .i32⟩ : BufTy).Contents (Elt F) → (⟨S330000, .i32⟩ : BufTy).Contents (Elt F) → (⟨S330000, .i32⟩ : BufTy).Contents (Elt F)),
    ternary main_v17 main_v19 main_v6 main_v20 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v20 main_v21 (broadcastInDim S330000x1 ![0] bcast_S330000_S330000x1_0 : (⟨S330000, .i32⟩ : BufTy).Contents (Elt F) → (⟨S330000x1, .i32⟩ : BufTy).Contents (Elt F)),
    binary main_v15 main_v21 main_v22 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    nullary main_c_4 (constantI S_ 32 0#32),
    unary main_c_4 main_v23 (broadcastInDim S330000 ![] bcast_S_S330000 : (⟨S_, .i32⟩ : BufTy).Contents (Elt F) → (⟨S330000, .i32⟩ : BufTy).Contents (Elt F)),
    binary main_v7 main_v23 main_v24 (cmpi .slt : (⟨S330000, .i32⟩ : BufTy).Contents (Elt F) → (⟨S330000, .i32⟩ : BufTy).Contents (Elt F) → (⟨S330000, .i1⟩ : BufTy).Contents (Elt F)),
    nullary main_c_5 (constantI S_ 32 10000#32),
    unary main_c_5 main_v25 (broadcastInDim S330000 ![] bcast_S_S330000 : (⟨S_, .i32⟩ : BufTy).Contents (Elt F) → (⟨S330000, .i32⟩ : BufTy).Contents (Elt F)),
    binary main_v7 main_v25 main_v26 (addi : (⟨S330000, .i32⟩ : BufTy).Contents (Elt F) → (⟨S330000, .i32⟩ : BufTy).Contents (Elt F) → (⟨S330000, .i32⟩ : BufTy).Contents (Elt F)),
    ternary main_v24 main_v26 main_v7 main_v27 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v27 main_v28 (broadcastInDim S330000x1 ![0] bcast_S330000_S330000x1_0 : (⟨S330000, .i32⟩ : BufTy).Contents (Elt F) → (⟨S330000x1, .i32⟩ : BufTy).Contents (Elt F)),
    binary main_v15 main_v28 main_v29 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    binary main_v22 main_v29 main_v30 (mulf : (⟨S330000, .f32⟩ : BufTy).Contents (Elt F) → (⟨S330000, .f32⟩ : BufTy).Contents (Elt F) → (⟨S330000, .f32⟩ : BufTy).Contents (Elt F)),
    nullary main_c_6 (constantI S_ 32 0#32),
    unary main_c_6 main_v31 (broadcastInDim S330000 ![] bcast_S_S330000 : (⟨S_, .i32⟩ : BufTy).Contents (Elt F) → (⟨S330000, .i32⟩ : BufTy).Contents (Elt F)),
    binary main_v6 main_v31 main_v32 (cmpi .slt : (⟨S330000, .i32⟩ : BufTy).Contents (Elt F) → (⟨S330000, .i32⟩ : BufTy).Contents (Elt F) → (⟨S330000, .i1⟩ : BufTy).Contents (Elt F)),
    nullary main_c_7 (constantI S_ 32 10000#32),
    unary main_c_7 main_v33 (broadcastInDim S330000 ![] bcast_S_S330000 : (⟨S_, .i32⟩ : BufTy).Contents (Elt F) → (⟨S330000, .i32⟩ : BufTy).Contents (Elt F)),
    binary main_v6 main_v33 main_v34 (addi : (⟨S330000, .i32⟩ : BufTy).Contents (Elt F) → (⟨S330000, .i32⟩ : BufTy).Contents (Elt F) → (⟨S330000, .i32⟩ : BufTy).Contents (Elt F)),
    ternary main_v32 main_v34 main_v6 main_v35 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v35 main_v36 (broadcastInDim S330000x1 ![0] bcast_S330000_S330000x1_0 : (⟨S330000, .i32⟩ : BufTy).Contents (Elt F) → (⟨S330000x1, .i32⟩ : BufTy).Contents (Elt F)),
    binary main_v4 main_v36 main_v37 ((fun x i => Host.gather gather_S10000x256_S330000x1_S330000x256_1_0_n_n_0_1_1256 x i) : (⟨S10000x256, .f32⟩ : BufTy).Contents (Elt F) → (⟨S330000x1, .i32⟩ : BufTy).Contents (Elt F) → (⟨S330000x256, .f32⟩ : BufTy).Contents (Elt F)),
    unary main_v30 main_v38 (broadcastInDim S330000x1 ![0] bcast_S330000_S330000x1_0 : (⟨S330000, .f32⟩ : BufTy).Contents (Elt F) → (⟨S330000x1, .f32⟩ : BufTy).Contents (Elt F)),
    unary main_v38 main_v39 (broadcastInDim S330000x256 ![0, 1] bcast_S330000x1_S330000x256_0_1 : (⟨S330000x1, .f32⟩ : BufTy).Contents (Elt F) → (⟨S330000x256, .f32⟩ : BufTy).Contents (Elt F)),
    binary main_v37 main_v39 main_v40 (mulf : (⟨S330000x256, .f32⟩ : BufTy).Contents (Elt F) → (⟨S330000x256, .f32⟩ : BufTy).Contents (Elt F) → (⟨S330000x256, .f32⟩ : BufTy).Contents (Elt F)),
    nullary main_cst_8 (constant S_ .f32 0x00000000#32),
    unary main_cst_8 main_v41 (broadcastInDim S10000x256 ![] bcast_S_S10000x256 : (⟨S_, .f32⟩ : BufTy).Contents (Elt F) → (⟨S10000x256, .f32⟩ : BufTy).Contents (Elt F)),
    unary main_v7 main_v42 (broadcastInDim S330000x1 ![0] bcast_S330000_S330000x1_0 : (⟨S330000, .i32⟩ : BufTy).Contents (Elt F) → (⟨S330000x1, .i32⟩ : BufTy).Contents (Elt F)),
    ternary main_v41 main_v42 main_v40 main_v43 ((fun x i u => Host.scatterAdd scatter_S10000x256_S330000x1_S330000x256_1_0_0_1 x i u) : (⟨S10000x256, .f32⟩ : BufTy).Contents (Elt F) → (⟨S330000x1, .i32⟩ : BufTy).Contents (Elt F) → (⟨S330000x256, .f32⟩ : BufTy).Contents (Elt F) → (⟨S10000x256, .f32⟩ : BufTy).Contents (Elt F)),
    unary main_arg3 main_v44 (broadcastInDim S1x256 ![1] bcast_S256_S1x256_1 : (⟨S256, .f32⟩ : BufTy).Contents (Elt F) → (⟨S1x256, .f32⟩ : BufTy).Contents (Elt F)),
    unary main_v44 main_v45 (broadcastInDim S10000x256 ![0, 1] bcast_S1x256_S10000x256_0_1 : (⟨S1x256, .f32⟩ : BufTy).Contents (Elt F) → (⟨S10000x256, .f32⟩ : BufTy).Contents (Elt F)),
    binary main_v43 main_v45 main_v46 (addf : (⟨S10000x256, .f32⟩ : BufTy).Contents (Elt F) → (⟨S10000x256, .f32⟩ : BufTy).Contents (Elt F) → (⟨S10000x256, .f32⟩ : BufTy).Contents (Elt F)) ]
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsB_fresh : (opsB : List (HloOp τ sig (Elt F))).Forall fun op => op.fresh = ∅ := by
  all_fresh opsB

/-- Operations 60 … 63 of @main, in order. -/
abbrev opsC : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S10000x256, .f32⟩) main_call1_v0) (broadcastInDim S10000x256 ![] bcast_S_S10000x256),
    TRef.binary (TRef.of (T := ⟨S10000x256, .f32⟩) main_v46) (TRef.of (T := ⟨S10000x256, .f32⟩) main_call1_v0) (TRef.of (T := ⟨S10000x256, .f32⟩) main_v47) maximumf,
    binary main_v47 main_arg4 main_v48 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)) ]
theorem opsC_sub : (opsC : List (HloOp τ sig (Elt F))).Forall fun op => op.bufs ⊆ tcRefs τ sig :=
  ⟨nullary_bufs_sub .., unary_bufs_sub .., binary_bufs_sub .., binary_bufs_sub ..⟩
theorem opsC_fresh : (opsC : List (HloOp τ sig (Elt F))).Forall fun op => op.fresh = ∅ := by
  all_fresh opsC

/-- Operations 64 … 66 of @main, in order. -/
abbrev opsD1 : List (HloOp τ sig (Elt F)) :=
  [ nullary main_v49 (iotaInDim S10000 32 0),
    binary main_v1 main_v49 main_v50 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    binary main_v3 main_v49 main_v51 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)) ]
theorem opsD1_sub : (opsD1 : List (HloOp τ sig (Elt F))).Forall fun op => op.bufs ⊆ tcRefs τ sig :=
  ⟨nullary_bufs_sub .., binary_bufs_sub .., binary_bufs_sub ..⟩
theorem opsD1_fresh : (opsD1 : List (HloOp τ sig (Elt F))).Forall fun op => op.fresh = ∅ := by
  all_fresh opsD1

/-- Operations 67 … 80 of @main, in order. -/
abbrev opsD2 : List (HloOp τ sig (Elt F)) :=
  [ nullary main_cst_9 (constant S_ .f32 0x3F800000#32),
    unary main_cst_9 main_v52 (broadcastInDim S330000 ![] bcast_S_S330000 : (⟨S_, .f32⟩ : BufTy).Contents (Elt F) → (⟨S330000, .f32⟩ : BufTy).Contents (Elt F)),
    nullary main_cst_10 (constant S_ .f32 0x00000000#32),
    unary main_cst_10 main_v53 (broadcastInDim S10000 ![] bcast_S_S10000 : (⟨S_, .f32⟩ : BufTy).Contents (Elt F) → (⟨S10000, .f32⟩ : BufTy).Contents (Elt F)),
    unary main_v51 main_v54 (broadcastInDim S330000x1 ![0] bcast_S330000_S330000x1_0 : (⟨S330000, .i32⟩ : BufTy).Contents (Elt F) → (⟨S330000x1, .i32⟩ : BufTy).Contents (Elt F)),
    ternary main_v53 main_v54 main_v52 main_v55 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_11 (constant S_ .f32 0x00000000#32),
    unary main_cst_11 main_v56 (broadcastInDim S10000 ![] bcast_S_S10000 : (⟨S_, .f32⟩ : BufTy).Contents (Elt F) → (⟨S10000, .f32⟩ : BufTy).Contents (Elt F)),
    binary main_v55 main_v56 main_v57 (cmpf .ogt : (⟨S10000, .f32⟩ : BufTy).Contents (Elt F) → (⟨S10000, .f32⟩ : BufTy).Contents (Elt F) → (⟨S10000, .i1⟩ : BufTy).Contents (Elt F)),
    unary main_v55 main_v58 (Host.rsqrt : (⟨S10000, .f32⟩ : BufTy).Contents (Elt F) → (⟨S10000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S10000, .f32⟩) main_call2_v1) (broadcastInDim S10000 ![] bcast_S_S10000),
    TRef.ternary (TRef.of (T := ⟨S10000, .i1⟩) main_v57) (TRef.of (T := ⟨S10000, .f32⟩) main_v58) (TRef.of (T := ⟨S10000, .f32⟩) main_call2_v1) (TRef.of (T := ⟨S10000, .f32⟩) main_v59) select ]
theorem opsD2_sub : (opsD2 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩
theorem opsD2_fresh : (opsD2 : List (HloOp τ sig (Elt F))).Forall fun op => op.fresh = ∅ := by
  all_fresh opsD2

/-- Operations 81 … 118 of @main, in order. -/
abbrev opsE : List (HloOp τ sig (Elt F)) :=
  [ nullary main_c_13 (constantI S_ 32 0#32),
    unary main_c_13 main_v60 (broadcastInDim S330000 ![] bcast_S_S330000 : (⟨S_, .i32⟩ : BufTy).Contents (Elt F) → (⟨S330000, .i32⟩ : BufTy).Contents (Elt F)),
    binary main_v50 main_v60 main_v61 (cmpi .slt : (⟨S330000, .i32⟩ : BufTy).Contents (Elt F) → (⟨S330000, .i32⟩ : BufTy).Contents (Elt F) → (⟨S330000, .i1⟩ : BufTy).Contents (Elt F)),
    nullary main_c_14 (constantI S_ 32 10000#32),
    unary main_c_14 main_v62 (broadcastInDim S330000 ![] bcast_S_S330000 : (⟨S_, .i32⟩ : BufTy).Contents (Elt F) → (⟨S330000, .i32⟩ : BufTy).Contents (Elt F)),
    binary main_v50 main_v62 main_v63 (addi : (⟨S330000, .i32⟩ : BufTy).Contents (Elt F) → (⟨S330000, .i32⟩ : BufTy).Contents (Elt F) → (⟨S330000, .i32⟩ : BufTy).Contents (Elt F)),
    ternary main_v61 main_v63 main_v50 main_v64 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v64 main_v65 (broadcastInDim S330000x1 ![0] bcast_S330000_S330000x1_0 : (⟨S330000, .i32⟩ : BufTy).Contents (Elt F) → (⟨S330000x1, .i32⟩ : BufTy).Contents (Elt F)),
    binary main_v59 main_v65 main_v66 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    nullary main_c_15 (constantI S_ 32 0#32),
    unary main_c_15 main_v67 (broadcastInDim S330000 ![] bcast_S_S330000 : (⟨S_, .i32⟩ : BufTy).Contents (Elt F) → (⟨S330000, .i32⟩ : BufTy).Contents (Elt F)),
    binary main_v51 main_v67 main_v68 (cmpi .slt : (⟨S330000, .i32⟩ : BufTy).Contents (Elt F) → (⟨S330000, .i32⟩ : BufTy).Contents (Elt F) → (⟨S330000, .i1⟩ : BufTy).Contents (Elt F)),
    nullary main_c_16 (constantI S_ 32 10000#32),
    unary main_c_16 main_v69 (broadcastInDim S330000 ![] bcast_S_S330000 : (⟨S_, .i32⟩ : BufTy).Contents (Elt F) → (⟨S330000, .i32⟩ : BufTy).Contents (Elt F)),
    binary main_v51 main_v69 main_v70 (addi : (⟨S330000, .i32⟩ : BufTy).Contents (Elt F) → (⟨S330000, .i32⟩ : BufTy).Contents (Elt F) → (⟨S330000, .i32⟩ : BufTy).Contents (Elt F)),
    ternary main_v68 main_v70 main_v51 main_v71 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v71 main_v72 (broadcastInDim S330000x1 ![0] bcast_S330000_S330000x1_0 : (⟨S330000, .i32⟩ : BufTy).Contents (Elt F) → (⟨S330000x1, .i32⟩ : BufTy).Contents (Elt F)),
    binary main_v59 main_v72 main_v73 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    binary main_v66 main_v73 main_v74 (mulf : (⟨S330000, .f32⟩ : BufTy).Contents (Elt F) → (⟨S330000, .f32⟩ : BufTy).Contents (Elt F) → (⟨S330000, .f32⟩ : BufTy).Contents (Elt F)),
    nullary main_c_17 (constantI S_ 32 0#32),
    unary main_c_17 main_v75 (broadcastInDim S330000 ![] bcast_S_S330000 : (⟨S_, .i32⟩ : BufTy).Contents (Elt F) → (⟨S330000, .i32⟩ : BufTy).Contents (Elt F)),
    binary main_v50 main_v75 main_v76 (cmpi .slt : (⟨S330000, .i32⟩ : BufTy).Contents (Elt F) → (⟨S330000, .i32⟩ : BufTy).Contents (Elt F) → (⟨S330000, .i1⟩ : BufTy).Contents (Elt F)),
    nullary main_c_18 (constantI S_ 32 10000#32),
    unary main_c_18 main_v77 (broadcastInDim S330000 ![] bcast_S_S330000 : (⟨S_, .i32⟩ : BufTy).Contents (Elt F) → (⟨S330000, .i32⟩ : BufTy).Contents (Elt F)),
    binary main_v50 main_v77 main_v78 (addi : (⟨S330000, .i32⟩ : BufTy).Contents (Elt F) → (⟨S330000, .i32⟩ : BufTy).Contents (Elt F) → (⟨S330000, .i32⟩ : BufTy).Contents (Elt F)),
    ternary main_v76 main_v78 main_v50 main_v79 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v79 main_v80 (broadcastInDim S330000x1 ![0] bcast_S330000_S330000x1_0 : (⟨S330000, .i32⟩ : BufTy).Contents (Elt F) → (⟨S330000x1, .i32⟩ : BufTy).Contents (Elt F)),
    binary main_v48 main_v80 main_v81 ((fun x i => Host.gather gather_S10000x128_S330000x1_S330000x128_1_0_n_n_0_1_1128 x i) : (⟨S10000x128, .f32⟩ : BufTy).Contents (Elt F) → (⟨S330000x1, .i32⟩ : BufTy).Contents (Elt F) → (⟨S330000x128, .f32⟩ : BufTy).Contents (Elt F)),
    unary main_v74 main_v82 (broadcastInDim S330000x1 ![0] bcast_S330000_S330000x1_0 : (⟨S330000, .f32⟩ : BufTy).Contents (Elt F) → (⟨S330000x1, .f32⟩ : BufTy).Contents (Elt F)),
    unary main_v82 main_v83 (broadcastInDim S330000x128 ![0, 1] bcast_S330000x1_S330000x128_0_1 : (⟨S330000x1, .f32⟩ : BufTy).Contents (Elt F) → (⟨S330000x128, .f32⟩ : BufTy).Contents (Elt F)),
    binary main_v81 main_v83 main_v84 (mulf : (⟨S330000x128, .f32⟩ : BufTy).Contents (Elt F) → (⟨S330000x128, .f32⟩ : BufTy).Contents (Elt F) → (⟨S330000x128, .f32⟩ : BufTy).Contents (Elt F)),
    nullary main_cst_19 (constant S_ .f32 0x00000000#32),
    unary main_cst_19 main_v85 (broadcastInDim S10000x128 ![] bcast_S_S10000x128 : (⟨S_, .f32⟩ : BufTy).Contents (Elt F) → (⟨S10000x128, .f32⟩ : BufTy).Contents (Elt F)),
    unary main_v51 main_v86 (broadcastInDim S330000x1 ![0] bcast_S330000_S330000x1_0 : (⟨S330000, .i32⟩ : BufTy).Contents (Elt F) → (⟨S330000x1, .i32⟩ : BufTy).Contents (Elt F)),
    ternary main_v85 main_v86 main_v84 main_v87 ((fun x i u => Host.scatterAdd scatter_S10000x128_S330000x1_S330000x128_1_0_0_1 x i u) : (⟨S10000x128, .f32⟩ : BufTy).Contents (Elt F) → (⟨S330000x1, .i32⟩ : BufTy).Contents (Elt F) → (⟨S330000x128, .f32⟩ : BufTy).Contents (Elt F) → (⟨S10000x128, .f32⟩ : BufTy).Contents (Elt F)),
    unary main_arg5 main_v88 (broadcastInDim S1x128 ![1] bcast_S128_S1x128_1 : (⟨S128, .f32⟩ : BufTy).Contents (Elt F) → (⟨S1x128, .f32⟩ : BufTy).Contents (Elt F)),
    unary main_v88 main_v89 (broadcastInDim S10000x128 ![0, 1] bcast_S1x128_S10000x128_0_1 : (⟨S1x128, .f32⟩ : BufTy).Contents (Elt F) → (⟨S10000x128, .f32⟩ : BufTy).Contents (Elt F)),
    binary main_v87 main_v89 main_v90 (addf : (⟨S10000x128, .f32⟩ : BufTy).Contents (Elt F) → (⟨S10000x128, .f32⟩ : BufTy).Contents (Elt F) → (⟨S10000x128, .f32⟩ : BufTy).Contents (Elt F)) ]
theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsE_fresh : (opsE : List (HloOp τ sig (Elt F))).Forall fun op => op.fresh = ∅ := by
  all_fresh opsE

/-- @main's operations: the seven lines one after the other. -/
abbrev ops : List (HloOp τ sig (Elt F)) := opsA1 ++ (opsA2 ++ (opsB ++ (opsC ++ (opsD1 ++ (opsD2 ++ opsE)))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  Forall.append opsA1_sub (Forall.append opsA2_sub (Forall.append opsB_sub (Forall.append opsC_sub (Forall.append opsD1_sub (Forall.append opsD2_sub opsE_sub)))))
theorem ops_fresh : (ops : List (HloOp τ sig (Elt F))).Forall fun op => op.fresh = ∅ :=
  Forall.append opsA1_fresh (Forall.append opsA2_fresh (Forall.append opsB_fresh (Forall.append opsC_fresh (Forall.append opsD1_fresh (Forall.append opsD2_fresh opsE_fresh)))))

/-- The buffers after the seven lines, a line at a time. -/
theorem after_ops (V : Valuation τ sig (Elt F)) :
    after ops V = after opsE (after opsD2 (after opsD1 (after opsC (after opsB (after opsA2 (after opsA1 V)))))) := by
  unfold ops
  rw [after_append, after_append, after_append, after_append, after_append, after_append]

/-- On every device, from any memory with zero counters: every weakly fair execution of @main terminates with
    each buffer at the fold of the operations over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fresh_of_forall_dev fun _ => ops_fresh)

end Cert.ReferenceIdeal.RunValue

end
-- ==== Proof.RTerm.lean ====
/-
  The idealized reference as whole-array terms, in the program's own vocabulary.

  The graph quantities are functions of the edge array alone: the source and destination lists with the
  self-loops appended, a negative number wrapped as array indexing wraps it, the degree of every node and its
  guarded inverse square root.  A layer multiplies the features by the weights, gathers the source rows of all
  edges, multiplies row `e` by the two inverse square roots at the edge's ends, adds the rows at their
  destinations and adds the bias; between the layers sits a `max(·, 0)`.  Each term is written over the arrays it
  reads, so that it can be stated at any buffer contents.
-/
import proofs.«126754_j27788438405708_2_alg».proof.ReferenceIdeal
import proofs.«126754_j27788438405708_2_alg».proof.Proof.Gen.ReferenceIdeal
import Idealize.ShloMosaic.PureOps.Ideal

noncomputable section

namespace Cert.ReferenceIdeal.Term

open Cert.ReferenceIdeal Cert.ReferenceIdeal.Gen Idealize.ShloMosaic

/-- Row 0 of the edge array (the sources), as a list of 320000 node numbers. -/
def row0 (ei : IVec S2x320000 32) : IVec S320000 32 :=
  shapeCast S320000 (extractStridedSlice S1x320000 ![0, 0] ei slices_S2x320000_S1x320000_0_0) shapeCasts_S1x320000_S320000

/-- Row 1 of the edge array (the destinations). -/
def row1 (ei : IVec S2x320000 32) : IVec S320000 32 :=
  shapeCast S320000 (extractStridedSlice S1x320000 ![1, 0] ei slices_S2x320000_S1x320000_1_0) shapeCasts_S1x320000_S320000

/-- A list of edges' node numbers with the self-loops `0 … 9999` appended: 330000 node numbers. -/
def loops (v : IVec S320000 32) : IVec S330000 32 :=
  concatenate S330000 0 [⟨S320000, v⟩, ⟨S10000, (iotaInDim S10000 32 0)⟩] concatenates_S320000_S10000_S330000_d0

def srcSl (ei : IVec S2x320000 32) : IVec S330000 32 := loops (row0 ei)
def dstSl (ei : IVec S2x320000 32) : IVec S330000 32 := loops (row1 ei)

/-- A negative node number counted from the end, as array indexing reads it. -/
def wrap (v : IVec S330000 32) : IVec S330000 32 :=
  select (cmpi .slt v (broadcastInDim S330000 ![] bcast_S_S330000 (constantI S_ 32 0#32))) (addi v (broadcastInDim S330000 ![] bcast_S_S330000 (constantI S_ 32 10000#32))) v

/-- A list of node numbers as the one-column index array a gather or scatter takes. -/
def col (v : IVec S330000 32) : IVec S330000x1 32 :=
  broadcastInDim S330000x1 ![0] bcast_S330000_S330000x1_0 v

/-- The degree of every node: a one for every entry of the destination list added at the node it names. -/
def degOf (dst : IVec S330000 32) : FVec Ideal S10000 .f32 :=
  Host.scatterAdd scatter_S10000_S330000x1_S330000_n_0_0_1 (broadcastInDim S10000 ![] bcast_S_S10000 (constant (F := Ideal) S_ .f32 0x00000000#32)) (col dst) (broadcastInDim S330000 ![] bcast_S_S330000 (constant (F := Ideal) S_ .f32 0x3F800000#32))

/-- `where(deg > 0, rsqrt deg, 0)`. -/
def dinvOf (dst : IVec S330000 32) : FVec Ideal S10000 .f32 :=
  select (cmpf (F := Ideal) .ogt (degOf dst) (broadcastInDim S10000 ![] bcast_S_S10000 (constant (F := Ideal) S_ .f32 0x00000000#32))) (Host.rsqrt (F := Ideal) (degOf dst)) (broadcastInDim S10000 ![] bcast_S_S10000 (id (constant (F := Ideal) S_ .f32 0x00000000#32)))

/-- The first matrix product: features times weights. -/
def prod1 (x : FVec Ideal S10000x512 .f32) (w : FVec Ideal S512x256 .f32) : FVec Ideal S10000x256 .f32 :=
  Host.dotGeneral dot_S10000x512_S512x256_S10000x256_1_0_0_1_n_n none x w

/-- The first layer's aggregation (width 256) of the product rows `h`, over the arrays it reads. -/
def agg256 (h : FVec Ideal S10000x256 .f32) (b : FVec Ideal S256 .f32) (src dst : IVec S330000 32) (d : FVec Ideal S10000 .f32) : FVec Ideal S10000x256 .f32 :=
  addf (Host.scatterAdd scatter_S10000x256_S330000x1_S330000x256_1_0_0_1 (broadcastInDim S10000x256 ![] bcast_S_S10000x256 (constant (F := Ideal) S_ .f32 0x00000000#32)) (col dst) (mulf (Host.gather gather_S10000x256_S330000x1_S330000x256_1_0_n_n_0_1_1256 h (col (wrap src))) (broadcastInDim S330000x256 ![0, 1] bcast_S330000x1_S330000x256_0_1 (broadcastInDim S330000x1 ![0] bcast_S330000_S330000x1_0 (mulf (Host.gather gather_S10000_S330000x1_S330000_n_0_n_n_0_1_1 d (col (wrap src))) (Host.gather gather_S10000_S330000x1_S330000_n_0_n_n_0_1_1 d (col (wrap dst)))))))) (broadcastInDim S10000x256 ![0, 1] bcast_S1x256_S10000x256_0_1 (broadcastInDim S1x256 ![1] bcast_S256_S1x256_1 b))

/-- `max(·, 0)` between the layers, then the second matrix product. -/
def mid (h : FVec Ideal S10000x256 .f32) (w : FVec Ideal S256x128 .f32) : FVec Ideal S10000x128 .f32 :=
  Host.dotGeneral dot_S10000x256_S256x128_S10000x128_1_0_0_1_n_n none (maximumf h (broadcastInDim S10000x256 ![] bcast_S_S10000x256 (constant (F := Ideal) S_ .f32 0x00000000#32))) w

/-- The second layer's aggregation (width 128). -/
def agg128 (h : FVec Ideal S10000x128 .f32) (b : FVec Ideal S128 .f32) (src dst : IVec S330000 32) (d : FVec Ideal S10000 .f32) : FVec Ideal S10000x128 .f32 :=
  addf (Host.scatterAdd scatter_S10000x128_S330000x1_S330000x128_1_0_0_1 (broadcastInDim S10000x128 ![] bcast_S_S10000x128 (constant (F := Ideal) S_ .f32 0x00000000#32)) (col dst) (mulf (Host.gather gather_S10000x128_S330000x1_S330000x128_1_0_n_n_0_1_1128 h (col (wrap src))) (broadcastInDim S330000x128 ![0, 1] bcast_S330000x1_S330000x128_0_1 (broadcastInDim S330000x1 ![0] bcast_S330000_S330000x1_0 (mulf (Host.gather gather_S10000_S330000x1_S330000_n_0_n_n_0_1_1 d (col (wrap src))) (Host.gather gather_S10000_S330000x1_S330000_n_0_n_n_0_1_1 d (col (wrap dst)))))))) (broadcastInDim S10000x128 ![0, 1] bcast_S1x128_S10000x128_0_1 (broadcastInDim S1x128 ![1] bcast_S128_S1x128_1 b))

end Cert.ReferenceIdeal.Term

end
-- ==== Proof.RFold.lean ====
/-
  The idealized reference's result buffer after @main, read as a whole-array term.

  @main is cut into seven lines (the module of its operations).  A line's effect is stated for ARBITRARY buffer
  contents `V` before it: which array each buffer of interest ends at, as a term of the arrays `V` holds, and that
  the buffers it does not write keep `V`'s contents.  Walking the seven lines in order gives the result buffer as the
  second layer's aggregation of `max(first layer, 0) · W2`, the first layer being the aggregation of `x · W1`; both
  layers over the same two lists with the self-loops appended and the same inverse square roots of the degrees
  (the program computes them twice; the two computations are one term).  No line writes an argument.
-/
import proofs.«126754_j27788438405708_2_alg».proof.Proof.RefOps
import proofs.«126754_j27788438405708_2_alg».proof.Proof.RTerm

set_option maxRecDepth 16384

noncomputable section

namespace Cert.ReferenceIdeal.Fold

open Cert.ReferenceIdeal Cert.ReferenceIdeal.Gen Cert.ReferenceIdeal.Term Cert.ReferenceIdeal.RunValue
open Idealize.ShloMosaic Idealize.ShloMosaic.StableHlo Idealize.ShloMosaic.TcCoe Idealize.SL.Sem

variable (V : Valuation τ sig (Elt Ideal))

/-! ## A1: the edge lists and the first matrix product -/
theorem A1_v1 : after opsA1 V (Proc.devRef .tc main_v1) = row0 (V (Proc.devRef .tc main_arg1)) := by
  simp only [opsA1]
  after_results_simp
  rfl
theorem A1_v3 : after opsA1 V (Proc.devRef .tc main_v3) = row1 (V (Proc.devRef .tc main_arg1)) := by
  simp only [opsA1]
  after_results_simp
  rfl
theorem A1_v4 : after opsA1 V (Proc.devRef .tc main_v4) = prod1 (V (Proc.devRef .tc main_arg0)) (V (Proc.devRef .tc main_arg2)) := by
  simp only [opsA1]
  after_results_simp
  rfl
theorem A1_v6 : after opsA1 V (Proc.devRef .tc main_v6) = loops (row0 (V (Proc.devRef .tc main_arg1))) := by
  simp only [opsA1]
  after_results_simp
  rfl
theorem A1_v7 : after opsA1 V (Proc.devRef .tc main_v7) = loops (row1 (V (Proc.devRef .tc main_arg1))) := by
  simp only [opsA1]
  after_results_simp
  rfl
theorem A1_keep_arg3 : after opsA1 V (Proc.devRef .tc main_arg3) = V (Proc.devRef .tc main_arg3) := by
  simp only [opsA1]
  after_results_simp
theorem A1_keep_arg4 : after opsA1 V (Proc.devRef .tc main_arg4) = V (Proc.devRef .tc main_arg4) := by
  simp only [opsA1]
  after_results_simp
theorem A1_keep_arg5 : after opsA1 V (Proc.devRef .tc main_arg5) = V (Proc.devRef .tc main_arg5) := by
  simp only [opsA1]
  after_results_simp

/-! ## A2: the degree and its inverse square root -/
theorem A2_v15 : after opsA2 V (Proc.devRef .tc main_v15) = dinvOf (V (Proc.devRef .tc main_v7)) := by
  simp only [opsA2]
  after_results_simp
  simp only [TRef.toBuf, TRef.ofBuf, cast_eq]
  rfl
theorem A2_keep_v1 : after opsA2 V (Proc.devRef .tc main_v1) = V (Proc.devRef .tc main_v1) := by
  simp only [opsA2]
  after_results_simp
theorem A2_keep_v3 : after opsA2 V (Proc.devRef .tc main_v3) = V (Proc.devRef .tc main_v3) := by
  simp only [opsA2]
  after_results_simp
theorem A2_keep_v4 : after opsA2 V (Proc.devRef .tc main_v4) = V (Proc.devRef .tc main_v4) := by
  simp only [opsA2]
  after_results_simp
theorem A2_keep_v6 : after opsA2 V (Proc.devRef .tc main_v6) = V (Proc.devRef .tc main_v6) := by
  simp only [opsA2]
  after_results_simp
theorem A2_keep_v7 : after opsA2 V (Proc.devRef .tc main_v7) = V (Proc.devRef .tc main_v7) := by
  simp only [opsA2]
  after_results_simp
theorem A2_keep_arg3 : after opsA2 V (Proc.devRef .tc main_arg3) = V (Proc.devRef .tc main_arg3) := by
  simp only [opsA2]
  after_results_simp
theorem A2_keep_arg4 : after opsA2 V (Proc.devRef .tc main_arg4) = V (Proc.devRef .tc main_arg4) := by
  simp only [opsA2]
  after_results_simp
theorem A2_keep_arg5 : after opsA2 V (Proc.devRef .tc main_arg5) = V (Proc.devRef .tc main_arg5) := by
  simp only [opsA2]
  after_results_simp

/-! ## B: the first layer's aggregation -/
theorem B_v46 : after opsB V (Proc.devRef .tc main_v46) = agg256 (V (Proc.devRef .tc main_v4)) (V (Proc.devRef .tc main_arg3)) (V (Proc.devRef .tc main_v6)) (V (Proc.devRef .tc main_v7)) (V (Proc.devRef .tc main_v15)) := by
  simp only [opsB]
  after_results_simp
  rfl
theorem B_keep_v1 : after opsB V (Proc.devRef .tc main_v1) = V (Proc.devRef .tc main_v1) := by
  simp only [opsB]
  after_results_simp
theorem B_keep_v3 : after opsB V (Proc.devRef .tc main_v3) = V (Proc.devRef .tc main_v3) := by
  simp only [opsB]
  after_results_simp
theorem B_keep_arg4 : after opsB V (Proc.devRef .tc main_arg4) = V (Proc.devRef .tc main_arg4) := by
  simp only [opsB]
  after_results_simp
theorem B_keep_arg5 : after opsB V (Proc.devRef .tc main_arg5) = V (Proc.devRef .tc main_arg5) := by
  simp only [opsB]
  after_results_simp

/-! ## C: `max(·, 0)` and the second matrix product -/
theorem C_v48 : after opsC V (Proc.devRef .tc main_v48) = mid (V (Proc.devRef .tc main_v46)) (V (Proc.devRef .tc main_arg4)) := by
  simp only [opsC]
  after_results_simp
  simp only [TRef.toBuf, TRef.ofBuf, cast_eq]
  rfl
theorem C_keep_v1 : after opsC V (Proc.devRef .tc main_v1) = V (Proc.devRef .tc main_v1) := by
  simp only [opsC]
  after_results_simp
theorem C_keep_v3 : after opsC V (Proc.devRef .tc main_v3) = V (Proc.devRef .tc main_v3) := by
  simp only [opsC]
  after_results_simp
theorem C_keep_arg5 : after opsC V (Proc.devRef .tc main_arg5) = V (Proc.devRef .tc main_arg5) := by
  simp only [opsC]
  after_results_simp

/-! ## D1, D2: the lists and the inverse square roots again -/
theorem D1_v50 : after opsD1 V (Proc.devRef .tc main_v50) = loops (V (Proc.devRef .tc main_v1)) := by
  simp only [opsD1]
  after_results_simp
  rfl
theorem D1_v51 : after opsD1 V (Proc.devRef .tc main_v51) = loops (V (Proc.devRef .tc main_v3)) := by
  simp only [opsD1]
  after_results_simp
  rfl
theorem D1_keep_v48 : after opsD1 V (Proc.devRef .tc main_v48) = V (Proc.devRef .tc main_v48) := by
  simp only [opsD1]
  after_results_simp
theorem D1_keep_arg5 : after opsD1 V (Proc.devRef .tc main_arg5) = V (Proc.devRef .tc main_arg5) := by
  simp only [opsD1]
  after_results_simp
theorem D2_v59 : after opsD2 V (Proc.devRef .tc main_v59) = dinvOf (V (Proc.devRef .tc main_v51)) := by
  simp only [opsD2]
  after_results_simp
  simp only [TRef.toBuf, TRef.ofBuf, cast_eq]
  rfl
theorem D2_keep_v48 : after opsD2 V (Proc.devRef .tc main_v48) = V (Proc.devRef .tc main_v48) := by
  simp only [opsD2]
  after_results_simp
theorem D2_keep_v50 : after opsD2 V (Proc.devRef .tc main_v50) = V (Proc.devRef .tc main_v50) := by
  simp only [opsD2]
  after_results_simp
theorem D2_keep_v51 : after opsD2 V (Proc.devRef .tc main_v51) = V (Proc.devRef .tc main_v51) := by
  simp only [opsD2]
  after_results_simp
theorem D2_keep_arg5 : after opsD2 V (Proc.devRef .tc main_arg5) = V (Proc.devRef .tc main_arg5) := by
  simp only [opsD2]
  after_results_simp

/-! ## E: the second layer's aggregation -/
theorem E_v90 : after opsE V (Proc.devRef .tc main_v90) = agg128 (V (Proc.devRef .tc main_v48)) (V (Proc.devRef .tc main_arg5)) (V (Proc.devRef .tc main_v50)) (V (Proc.devRef .tc main_v51)) (V (Proc.devRef .tc main_v59)) := by
  simp only [opsE]
  after_results_simp
  rfl

/-! ## The walk -/

/-- THE RESULT BUFFER after @main, from any buffer contents `V`. -/
theorem result_v90 : after (ops (F := Ideal)) V (Proc.devRef .tc main_v90)
    = agg128
        (mid
          (agg256 (prod1 (V (Proc.devRef .tc main_arg0)) (V (Proc.devRef .tc main_arg2)))
            (V (Proc.devRef .tc main_arg3)) (srcSl (V (Proc.devRef .tc main_arg1))) (dstSl (V (Proc.devRef .tc main_arg1))) (dinvOf (dstSl (V (Proc.devRef .tc main_arg1)))))
          (V (Proc.devRef .tc main_arg4)))
        (V (Proc.devRef .tc main_arg5)) (srcSl (V (Proc.devRef .tc main_arg1))) (dstSl (V (Proc.devRef .tc main_arg1))) (dinvOf (dstSl (V (Proc.devRef .tc main_arg1)))) := by
  rw [after_ops, E_v90,
    D2_v59, D2_keep_v48, D2_keep_arg5, D2_keep_v50, D2_keep_v51,
    D1_v50, D1_v51, D1_keep_v48, D1_keep_arg5,
    C_v48, C_keep_v1, C_keep_v3, C_keep_arg5,
    B_v46, B_keep_v1, B_keep_v3, B_keep_arg4, B_keep_arg5,
    A2_v15, A2_keep_v1, A2_keep_v3, A2_keep_v4, A2_keep_v6, A2_keep_v7, A2_keep_arg3, A2_keep_arg4, A2_keep_arg5,
    A1_v1, A1_v3, A1_v4, A1_v6, A1_v7, A1_keep_arg3, A1_keep_arg4, A1_keep_arg5]
  rfl

/-- No operation of @main writes an argument. -/
theorem keep_arg0 : after (ops (F := Ideal)) V (Proc.devRef .tc main_arg0) = V (Proc.devRef .tc main_arg0) :=
  StableHlo.after_of_forall_not_mem (b := Proc.devRef .tc main_arg0) _ _ (List.forall_iff_forall_mem.mp (by
    simp only [ops, opsA1, opsA2, opsB, opsC, opsD1, opsD2, opsE, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_arg1 : after (ops (F := Ideal)) V (Proc.devRef .tc main_arg1) = V (Proc.devRef .tc main_arg1) :=
  StableHlo.after_of_forall_not_mem (b := Proc.devRef .tc main_arg1) _ _ (List.forall_iff_forall_mem.mp (by
    simp only [ops, opsA1, opsA2, opsB, opsC, opsD1, opsD2, opsE, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_arg2 : after (ops (F := Ideal)) V (Proc.devRef .tc main_arg2) = V (Proc.devRef .tc main_arg2) :=
  StableHlo.after_of_forall_not_mem (b := Proc.devRef .tc main_arg2) _ _ (List.forall_iff_forall_mem.mp (by
    simp only [ops, opsA1, opsA2, opsB, opsC, opsD1, opsD2, opsE, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_arg3 : after (ops (F := Ideal)) V (Proc.devRef .tc main_arg3) = V (Proc.devRef .tc main_arg3) :=
  StableHlo.after_of_forall_not_mem (b := Proc.devRef .tc main_arg3) _ _ (List.forall_iff_forall_mem.mp (by
    simp only [ops, opsA1, opsA2, opsB, opsC, opsD1, opsD2, opsE, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_arg4 : after (ops (F := Ideal)) V (Proc.devRef .tc main_arg4) = V (Proc.devRef .tc main_arg4) :=
  StableHlo.after_of_forall_not_mem (b := Proc.devRef .tc main_arg4) _ _ (List.forall_iff_forall_mem.mp (by
    simp only [ops, opsA1, opsA2, opsB, opsC, opsD1, opsD2, opsE, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_arg5 : after (ops (F := Ideal)) V (Proc.devRef .tc main_arg5) = V (Proc.devRef .tc main_arg5) :=
  StableHlo.after_of_forall_not_mem (b := Proc.devRef .tc main_arg5) _ _ (List.forall_iff_forall_mem.mp (by
    simp only [ops, opsA1, opsA2, opsB, opsC, opsD1, opsD2, opsE, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.ReferenceIdeal.Fold

end
-- ==== Proof.RSpec.lean ====
/-
  The idealized reference's result as one function of the six arguments: the second layer's aggregation of
  `max(first layer, 0) · W2`, the first layer the aggregation of `x · W1`.
-/
import proofs.«126754_j27788438405708_2_alg».proof.Proof.RTerm

noncomputable section

namespace Cert.ReferenceIdeal.Term

open Cert.ReferenceIdeal Cert.ReferenceIdeal.Gen Idealize.ShloMosaic

/-- The reference's result. -/
def referenceValue (x : FVec Ideal S10000x512 .f32) (ei : IVec S2x320000 32) (w1 : FVec Ideal S512x256 .f32) (b1 : FVec Ideal S256 .f32)
    (w2 : FVec Ideal S256x128 .f32) (b2 : FVec Ideal S128 .f32) : FVec Ideal S10000x128 .f32 :=
  agg128 (mid (agg256 (prod1 x w1) b1 (srcSl ei) (dstSl ei) (dinvOf (dstSl ei))) w2) b2 (srcSl ei) (dstSl ei) (dinvOf (dstSl ei))

end Cert.ReferenceIdeal.Term

end
-- ==== Proof.RValue.lean ====
/-
  The idealized reference's run, with its result as `referenceValue` of the six arguments: every buffer ends at
  the fold of @main's seven lines over the launch contents; the result buffer's fold is the composed term of the
  arguments, and no line writes an argument.
-/
import proofs.«126754_j27788438405708_2_alg».proof.Proof.RFold
import proofs.«126754_j27788438405708_2_alg».proof.Proof.RSpec

set_option maxRecDepth 16384

noncomputable section

namespace Cert.ReferenceIdeal.RunValue

open Cert.ReferenceIdeal Cert.ReferenceIdeal.Gen Cert.ReferenceIdeal.Term Cert.ReferenceIdeal.Fold
open Idealize.ShloMosaic Idealize.ShloMosaic.StableHlo Idealize.ShloMosaic.TcCoe Idealize.SL.Sem

variable (m : (ℓ : Loc nD τ sig) → Buf (Elt Ideal) ℓ) (ρ : Dev nD → PrngReg)

/-- Every weakly fair execution of @main terminates, nothing faulting, with the result at `referenceValue` of the
    arguments and the arguments as launched. -/
theorem run_value : θ_run defs (onTc (τ := τ) (main (F := Ideal))) ⟨m, fun _ => 0, ρ⟩ (fun r => ∀ c : Dev nD,
      r.2.mem ((c.tc : Thread nD τ).loc main_v90)
        = referenceValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c main_v90).trans (result_v90 (launchContents m c)),
       (h c main_arg0).trans (keep_arg0 (launchContents m c)),
       (h c main_arg1).trans (keep_arg1 (launchContents m c)),
       (h c main_arg2).trans (keep_arg2 (launchContents m c)),
       (h c main_arg3).trans (keep_arg3 (launchContents m c)),
       (h c main_arg4).trans (keep_arg4 (launchContents m c)),
       (h c main_arg5).trans (keep_arg5 (launchContents m c))⟩)
    (run_after (F := Ideal) m ρ)

end Cert.ReferenceIdeal.RunValue

end
-- ==== Proof.GraphIndex.lean ====
/-
  Rows of a node table picked by a list of node numbers, and rows added back into a node table, read at an index.

  A graph layer sends a row of features along every edge: edge `e` names a source node and a destination node by
  two integer words.  Reading "the row of node `idx[e]`" out of an `N × F` table is a gather whose result entry
  `(e, f)` is the table's entry `(n, f)`, where `n` is the word `idx[e, 0]` read as a signed integer and clamped
  into `[0, N − 1]` (`nodeOf`); reading one number per edge out of a length-`N` vector picks the same `n`.
  Adding the rows back is an accumulating scatter: update entry `(e, f)` lands on table entry `(i₀, f)` exactly
  when the word `idx[e, 0]`, read signed and NOT clamped, is the row number `i₀` — so an update that lands has an
  index word that is in range, and clamping it changes nothing.
  The dimension numbers are the three records a row gather, a vector gather and a row scatter over an
  `E × 1` column of indices carry; sizes are parameters, so one statement serves every feature width.
-/
import Idealize.ShloMosaic.PureOps.Ideal.Laws
import Idealize.ShloMosaic.Lib.ValueIdx

noncomputable section

namespace Cert.Graph

open Idealize.ShloMosaic Idealize.ShloMosaic.ValueIdx

/-- A table of `n` rows of `f` numbers. -/
abbrev Rows (n f : Nat) : Shape := ⟨2, ![n, f]⟩
/-- A column of `e` index words. -/
abbrev Col (e : Nat) : Shape := ⟨2, ![e, 1]⟩
/-- A vector of `n` numbers. -/
abbrev Vec1 (n : Nat) : Shape := ⟨1, ![n]⟩

/-- The node edge `e` names in a column of index words, as a gather reads it: the word read signed, clamped into
    `[0, N − 1]`. -/
def nodeOf (N : Nat) {E w : Nat} (idx : IVec (Col E) w) (e : Fin E) : Nat :=
  min (idx (ix2 e (0 : Fin 1))).toInt.toNat (N - 1)

theorem nodeOf_lt {N E w : Nat} (hN : 0 < N) (idx : IVec (Col E) w) (e : Fin E) : nodeOf N idx e < N := by
  unfold nodeOf; omega

/-! ## A row gather: `table[idx]` for an `N × F` table -/

abbrev rowGather (N E F : Nat) (wf : GatherDims.WF (Rows N F) (Col E) (Rows E F) [1] [0] [] [0] [] 1 ![1, F]) :
    GatherDims (Rows N F) (Col E) (Rows E F) where
  offsetDims := [1]
  collapsedSliceDims := [0]
  operandBatchingDims := []
  startIndicesBatchingDims := []
  startIndexMap := [0]
  indexVectorDim := 1
  sliceSizes := ![1, F]
  wf := wf

/-- Result entry `(e, f)` reads the table's row `nodeOf idx e` … -/
theorem rowGather_row {N E F w : Nat} (wf : GatherDims.WF (Rows N F) (Col E) (Rows E F) [1] [0] [] [0] [] 1 ![1, F])
    (j : (Rows E F).Idx) (idx : IVec (Col E) w) :
    ((rowGather N E F wf).operandIdx j idx 0).val = nodeOf N idx (j 0) := by
  show (rowGather N E F wf).start j idx 0 + (rowGather N E F wf).batchCoord j 0 + (rowGather N E F wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N E F wf).startIndexMap from List.mem_singleton.mpr rfl)]
  have hsi : (rowGather N E F wf).siIdx j ⟨List.idxOf (0 : Fin 2) (rowGather N E F wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … at column `f`. -/
theorem rowGather_col {N E F w : Nat} (wf : GatherDims.WF (Rows N F) (Col E) (Rows E F) [1] [0] [] [0] [] 1 ![1, F])
    (j : (Rows E F).Idx) (idx : IVec (Col E) w) :
    ((rowGather N E F wf).operandIdx j idx 1).val = (j 1).val := by
  show (rowGather N E F wf).start j idx 1 + (rowGather N E F wf).batchCoord j 1 + (rowGather N E F wf).offCoord j 1 = _
  rw [GatherDims.batchCoord_eq_zero _ _ _ List.not_mem_nil]
  unfold GatherDims.start GatherDims.offCoord
  rw [dif_neg (show (1 : Fin 2) ∉ (rowGather N E F wf).startIndexMap from
      (by decide : (1 : Fin 2) ∉ ([0] : List (Fin 2)))),
    dif_pos (show (1 : Fin 2) ∈ (rowGather N E F wf).sKept from
      (GatherDims.mem_sKept _ _).mpr ⟨(by decide : (1 : Fin 2) ∉ ([0] : List (Fin 2))), List.not_mem_nil⟩)]
  simp only [Nat.add_zero, Nat.zero_add]
  rfl

/-! ## A vector gather: `v[idx]` for a length-`N` vector -/

abbrev vecGather (N E : Nat) (wf : GatherDims.WF (Vec1 N) (Col E) (Vec1 E) [] [0] [] [0] [] 1 ![1]) :
    GatherDims (Vec1 N) (Col E) (Vec1 E) where
  offsetDims := []
  collapsedSliceDims := [0]
  operandBatchingDims := []
  startIndicesBatchingDims := []
  startIndexMap := [0]
  indexVectorDim := 1
  sliceSizes := ![1]
  wf := wf

/-- Result entry `e` reads the vector's entry `nodeOf idx e`. -/
theorem vecGather_node {N E w : Nat} (wf : GatherDims.WF (Vec1 N) (Col E) (Vec1 E) [] [0] [] [0] [] 1 ![1])
    (e : (Vec1 E).Idx) (idx : IVec (Col E) w) :
    ((vecGather N E wf).operandIdx e idx 0).val = nodeOf N idx (e 0) := by
  show (vecGather N E wf).start e idx 0 + (vecGather N E wf).batchCoord e 0 + (vecGather N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx e ⟨List.idxOf (0 : Fin 1) (vecGather N E wf).startIndexMap,
      List.idxOf_lt_length_iff.2 (List.mem_singleton.mpr rfl)⟩ = ix2 (e 0) (0 : Fin 1) := by
    funext b; refine Fin.ext ?_
    match b with
    | ⟨0, _⟩ => rfl
    | ⟨1, _⟩ => rfl
  rw [hsi]
  rfl

/-! ## A row scatter: rows added into an `N × F` table at `idx` -/

abbrev rowScatter (N E F : Nat) (wf : ScatterDims.WF (Rows N F) (Col E) (Rows E F) [1] [0] [0] 1) :
    ScatterDims (Rows N F) (Col E) (Rows E F) where
  updateWindowDims := [1]
  insertedWindowDims := [0]
  scatterDimsToOperandDims := [0]
  indexVectorDim := 1
  wf := wf

/-- An update entry `(e, f)` that lands on table entry `i` has the index word `idx[e, 0]`, read signed, equal to
    `i`'s row number. -/
theorem rowScatter_lands {N E F w : Nat} (wf : ScatterDims.WF (Rows N F) (Col E) (Rows E F) [1] [0] [0] 1)
    (j : (Rows E F).Idx) (idx : IVec (Col E) w) (i : (Rows N F).Idx)
    (h : (rowScatter N E F wf).resultIdx? j idx = some i) :
    (idx (ix2 (j 0) (0 : Fin 1))).toInt = ((i 0).val : Int) := by
  have hs : (rowScatter N E F wf).start j idx 0 = (idx (ix2 (j 0) (0 : Fin 1))).toInt := by
    unfold ScatterDims.start
    rw [dif_pos (show (0 : Fin 2) ∈ (rowScatter N E F wf).scatterDimsToOperandDims from List.mem_singleton.mpr rfl)]
    have hsi : (rowScatter N E F wf).siIdx j ⟨List.idxOf (0 : Fin 2) (rowScatter N E F wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hw : (rowScatter N E F wf).window j 0 = 0 := by
    unfold ScatterDims.window
    rw [dif_neg (show (0 : Fin 2) ∉ (rowScatter N E F wf).sKept from fun hm =>
      (List.mem_filter.mp hm).2 |> fun hd => (of_decide_eq_true hd) (List.mem_singleton.mpr rfl))]
  unfold ScatterDims.resultIdx? at h
  split at h
  · rename_i hc
    have h0 := hc 0
    have hi := congrArg (fun o => o.map fun (x : (Rows N F).Idx) => (x 0).val) h
    simp only [Option.map_some] at hi
    have hi' : ((rowScatter N E F wf).start j idx 0 + ((rowScatter N E F wf).window j 0 : Int)).toNat = (i 0).val :=
      Option.some.inj hi
    rw [hs, hw] at h0 hi'
    omega
  · exact absurd h (by simp)

/-- A landing update's index word, already in range, is left alone by clamping: the node it names is `i`'s row. -/
theorem nodeOf_of_lands {N E F w : Nat} (wf : ScatterDims.WF (Rows N F) (Col E) (Rows E F) [1] [0] [0] 1)
    (j : (Rows E F).Idx) (idx idx' : IVec (Col E) w) (i : (Rows N F).Idx)
    (h : (rowScatter N E F wf).resultIdx? j idx = some i)
    (hsame : 0 ≤ (idx (ix2 (j 0) (0 : Fin 1))).toInt → idx' (ix2 (j 0) (0 : Fin 1)) = idx (ix2 (j 0) (0 : Fin 1))) :
    nodeOf N idx' (j 0) = (i 0).val := by
  have hl := rowScatter_lands wf j idx i h
  have hi : (i 0).val < N := (i 0).isLt
  unfold nodeOf
  rw [hsame (by omega), hl]
  simp only [Int.toNat_natCast]
  omega

end Cert.Graph

end
-- ==== Proof.LibScatterScale.lean ====
/-
  GENERAL LEMMAS: pulling a factor out of an accumulating scatter, over the extended reals.

  Over the extended reals a product does not distribute over a sum in general (`+∞` and `-∞` among the summands),
  but a factor `k` with `0 ≤ k` and `k ≠ +∞` does come out of any finite sum, whatever the summands are
  (`mul_sum_of_nonneg`).  So for an accumulating float scatter read at the ideal values (each operand element plus
  the sum of the updates that land on it): if every update landing on element `i` is `k` times the matching update
  of a second scatter over the same indices, and the operand is zero at `i`, the first result at `i` is `k` times
  the second (`hostScatterAdd_scale`) — for any dimension numbers and shapes.
  Such factors arise as an inverse square root: `rsqrt x` of a positive extended real `x` (finite or `+∞`) is not
  negative and not `+∞` (`rsqrt_of_pos`), and so is the guarded form `where(x > 0, rsqrt x, 0)`
  (`select_rsqrt_good`).  Nothing here needs a finiteness hypothesis on the data.  Imports the library only.
-/
import Idealize.ShloMosaic.PureOps.Ideal.Laws
import Idealize.ShloMosaic.Lib.ValueIdx

noncomputable section

open scoped BigOperators

namespace Cert.ScatterScale

open Idealize.ShloMosaic Idealize.ShloMosaic.ValueIdx

/-! ## A factor that is not negative and not `+∞` comes out of a finite sum -/

theorem mul_sum_of_nonneg {ι : Type} (s : Finset ι) (g : ι → EReal) (k : EReal) (h0 : 0 ≤ k) (ht : k ≠ ⊤) :
    ∑ j ∈ s, k * g j = k * ∑ j ∈ s, g j := by
  classical
  induction s using Finset.induction_on with
  | empty => simp
  | insert a s ha ih =>
    rw [Finset.sum_insert ha, Finset.sum_insert ha, ih, EReal.left_distrib_of_nonneg_of_ne_top h0 ht]

/-- An accumulating scatter from zero whose landing updates are all `k` times another scatter's: the result is `k`
    times the other's, for `k` not negative and not `+∞`. -/
theorem hostScatterAdd_scale {s si su : Shape} (d : ScatterDims s si su) {w : Nat} (x : s.Idx → EReal) (idx : IVec si w)
    (u1 u2 : su.Idx → EReal) (i : s.Idx) (k : EReal) (hx : x i = 0) (h0 : 0 ≤ k) (ht : k ≠ ⊤)
    (hu : ∀ j, d.resultIdx? j idx = some i → u1 j = k * u2 j) :
    Ideal.hostScatterAdd d x idx u1 i = k * Ideal.hostScatterAdd d x idx u2 i := by
  unfold Ideal.hostScatterAdd
  rw [hx, zero_add, zero_add, ← mul_sum_of_nonneg _ _ k h0 ht]
  exact Finset.sum_congr rfl fun j hj => hu j (Finset.mem_filter.mp hj).2

/-! ## An inverse square root of a positive number is such a factor -/

theorem rsqrt_of_pos (x : EReal) (hx : 0 < x) : 0 ≤ Ideal.rsqrt x ∧ Ideal.rsqrt x ≠ ⊤ := by
  induction x using EReal.rec with
  | bot => exact absurd hx (by simp)
  | top => simp
  | coe r =>
    have hr : 0 < r := by exact_mod_cast hx
    rw [Ideal.rsqrt_coe, if_neg (not_lt.mpr hr.le), if_neg hr.ne']
    exact ⟨by exact_mod_cast inv_nonneg.mpr (Real.sqrt_nonneg r), EReal.coe_ne_top _⟩

/-- Zero, or the inverse square root of a positive extended real: not negative, not `+∞`. -/
theorem select_rsqrt_good (g : EReal) :
    0 ≤ Scalar.select (Ideal.cmp .ogt g 0) (Ideal.rsqrt g) 0 ∧ Scalar.select (Ideal.cmp .ogt g 0) (Ideal.rsqrt g) 0 ≠ ⊤ := by
  by_cases hd : (0 : EReal) < g
  · have hc : Ideal.cmp .ogt g 0 = 1#1 := by simp [Ideal.cmp, hd]
    rw [hc, ValueIdx.select_one]
    exact rsqrt_of_pos _ hd
  · have hc : Ideal.cmp .ogt g 0 = 0#1 := by simp [Ideal.cmp, hd]
    rw [hc, ValueIdx.select_zero]
    exact ⟨le_refl _, EReal.zero_ne_top⟩

end Cert.ScatterScale

end
-- ==== Proof.GraphLayer.lean ====
/-
  One graph layer, written two ways, is one function over the extended reals.

  Nodes `0 … N−1` carry rows of `K` features `X`; `W` is a `K × F` weight matrix, `b` a bias row, `d` one
  number per node (an inverse square root of a degree).  Every edge `e` names a source node `s(e)` and a
  destination node `t(e)` through columns of index words.

  The first way multiplies along the edges:  out[i, f] = ∑_{e lands on i} (X·W)[s(e), f] · (d[s(e)] · d[t(e)]) + b[f].
  The second scales the rows once before the product and once after the sum:
      out[i, f] = (∑_{e lands on i} ((d ∘ X)·W)[s(e), f]) · d[i] + b[f],   (d ∘ X)[n, k] = X[n, k] · d[n].

  They agree because (1) every edge that lands on row `i` has `t(e) = i`, so `d[t(e)]` is the one number `d[i]` on
  the whole sum; (2) `((d ∘ X)·W)[n, f] = d[n] · (X·W)[n, f]`; and (3) a factor that is not negative and not `+∞`
  comes out of any finite sum of extended reals, whatever the summands are.  No entry of `X`, `W` or `b` has to be
  finite: only `0 ≤ d[n] ≠ +∞` is used, which holds of an inverse square root.
-/
import proofs.«126754_j27788438405708_2_alg».proof.Proof.GraphIndex
import proofs.«126754_j27788438405708_2_alg».proof.Proof.LibScatterScale
import proofs.«126754_j27788438405708_2_alg».proof.Proof.LibMatProd

noncomputable section

open scoped BigOperators

namespace Cert.Graph

open Idealize.ShloMosaic Idealize.ShloMosaic.ValueIdx Cert.Linear Cert.ScatterScale

variable {N E F K : Nat}

/-- Row `n` of `X` multiplied by the `n`-th entry of `d`. -/
def scaleRows (X : (Rows N K).Idx → EReal) (d : (Vec1 N).Idx → EReal) : (Rows N K).Idx → EReal :=
  fun i => X i * d (ix1 (n := N) (i 0))

/-- Scaling the rows of the left factor scales the rows of the product, for a factor that is not negative and not
    `+∞`. -/
theorem matProd_scaleRows (X : (Rows N K).Idx → EReal) (W : (Rows K F).Idx → EReal) (d : (Vec1 N).Idx → EReal)
    (hd : ∀ n, 0 ≤ d n ∧ d n ≠ ⊤) (p : (Rows N F).Idx) :
    matProd (scaleRows X d) W p = d (ix1 (n := N) (p 0)) * matProd X W p := by
  unfold matProd scaleRows
  rw [← mul_sum_of_nonneg _ _ _ (hd _).1 (hd _).2]
  refine Finset.sum_congr rfl fun k _ => ?_
  show X _ * d (ix1 (n := N) (p 0)) * W _ = _
  rw [mul_comm (X _) (d _), mul_assoc]

/-- What the first way adds along update entry `(e, f)`: the gathered product entry times the two gathered
    factors. -/
def edgeTerm (wfg : GatherDims.WF (Rows N F) (Col E) (Rows E F) [1] [0] [] [0] [] 1 ![1, F])
    (wfv : GatherDims.WF (Vec1 N) (Col E) (Vec1 E) [] [0] [] [0] [] 1 ![1])
    (h : (Rows N F).Idx → EReal) (d : (Vec1 N).Idx → EReal) (srcN dstN : IVec (Col E) 32) : (Rows E F).Idx → EReal :=
  fun j => h ((rowGather N E F wfg).operandIdx j srcN)
    * (d ((vecGather N E wfv).operandIdx (ix1 (n := E) (j 0)) srcN) * d ((vecGather N E wfv).operandIdx (ix1 (n := E) (j 0)) dstN))

/-- What the second way adds along update entry `(e, f)`: the gathered entry of the pre-scaled product. -/
def edgeRow (wfg : GatherDims.WF (Rows N F) (Col E) (Rows E F) [1] [0] [] [0] [] 1 ![1, F])
    (hs : (Rows N F).Idx → EReal) (srcN : IVec (Col E) 32) : (Rows E F).Idx → EReal :=
  fun j => hs ((rowGather N E F wfg).operandIdx j srcN)

/-- THE AGGREGATION: the sum of the edge terms landing on `i` is the sum of the pre-scaled rows landing on `i`,
    times `d[i]`. `dstI` holds the destination words as the scatter reads them; `dstN` the words as the gather of
    `d` reads them, equal to `dstI`'s wherever that word is not negative. -/
theorem aggregate_eq (wfg : GatherDims.WF (Rows N F) (Col E) (Rows E F) [1] [0] [] [0] [] 1 ![1, F])
    (wfv : GatherDims.WF (Vec1 N) (Col E) (Vec1 E) [] [0] [] [0] [] 1 ![1])
    (wfs : ScatterDims.WF (Rows N F) (Col E) (Rows E F) [1] [0] [0] 1)
    (h hs : (Rows N F).Idx → EReal) (d : (Vec1 N).Idx → EReal) (srcN dstN dstI : IVec (Col E) 32)
    (hd : ∀ n, 0 ≤ d n ∧ d n ≠ ⊤)
    (hhs : ∀ p, hs p = d (ix1 (n := N) (p 0)) * h p)
    (hnorm : ∀ e : Fin E, 0 ≤ (dstI (ix2 e (0 : Fin 1))).toInt → dstN (ix2 e (0 : Fin 1)) = dstI (ix2 e (0 : Fin 1)))
    (i : (Rows N F).Idx) :
    Ideal.hostScatterAdd (rowScatter N E F wfs) (fun _ => 0) dstI (edgeTerm wfg wfv h d srcN dstN) i
      = Ideal.hostScatterAdd (rowScatter N E F wfs) (fun _ => 0) dstI (edgeRow wfg hs srcN) i * d (ix1 (n := N) (i 0)) := by
  rw [mul_comm]
  refine hostScatterAdd_scale _ _ _ _ _ i (d (ix1 (n := N) (i 0))) rfl (hd _).1 (hd _).2 fun j hj => ?_
  unfold edgeTerm edgeRow
  rw [hhs]
  have e1 : (vecGather N E wfv).operandIdx (ix1 (n := E) (j 0)) srcN
      = ix1 (n := N) (((rowGather N E F wfg).operandIdx j srcN) 0) := by
    rw [eq_ix1 ((vecGather N E wfv).operandIdx (ix1 (n := E) (j 0)) srcN)]
    refine congrArg _ (Fin.ext ?_)
    rw [vecGather_node, rowGather_row]
    rfl
  have e2 : (vecGather N E wfv).operandIdx (ix1 (n := E) (j 0)) dstN = ix1 (n := N) (i 0) := by
    rw [eq_ix1 ((vecGather N E wfv).operandIdx (ix1 (n := E) (j 0)) dstN)]
    refine congrArg _ (Fin.ext ?_)
    rw [vecGather_node]
    exact nodeOf_of_lands wfs j dstI dstN i hj (hnorm _)
  rw [e1, e2]
  rw [mul_comm (h _) _, mul_comm (d (ix1 (n := N) (((rowGather N E F wfg).operandIdx j srcN) 0))) _, mul_assoc]

/-- The layer the first way. -/
def refLayer (wfg : GatherDims.WF (Rows N F) (Col E) (Rows E F) [1] [0] [] [0] [] 1 ![1, F])
    (wfv : GatherDims.WF (Vec1 N) (Col E) (Vec1 E) [] [0] [] [0] [] 1 ![1])
    (wfs : ScatterDims.WF (Rows N F) (Col E) (Rows E F) [1] [0] [0] 1)
    (X : (Rows N K).Idx → EReal) (W : (Rows K F).Idx → EReal) (b : (Vec1 F).Idx → EReal) (d : (Vec1 N).Idx → EReal)
    (srcN dstN dstI : IVec (Col E) 32) : (Rows N F).Idx → EReal :=
  fun i => Ideal.hostScatterAdd (rowScatter N E F wfs) (fun _ => 0) dstI (edgeTerm wfg wfv (matProd X W) d srcN dstN) i
    + b (ix1 (n := F) (i 1))

/-- The layer the second way. -/
def kerLayer (wfg : GatherDims.WF (Rows N F) (Col E) (Rows E F) [1] [0] [] [0] [] 1 ![1, F])
    (wfs : ScatterDims.WF (Rows N F) (Col E) (Rows E F) [1] [0] [0] 1)
    (X : (Rows N K).Idx → EReal) (W : (Rows K F).Idx → EReal) (b : (Vec1 F).Idx → EReal) (d : (Vec1 N).Idx → EReal)
    (srcN dstI : IVec (Col E) 32) : (Rows N F).Idx → EReal :=
  fun i => Ideal.hostScatterAdd (rowScatter N E F wfs) (fun _ => 0) dstI (edgeRow wfg (matProd (scaleRows X d) W) srcN) i
      * d (ix1 (n := N) (i 0))
    + b (ix1 (n := F) (i 1))

/-- THE LAYER LAW. -/
theorem layer_eq (wfg : GatherDims.WF (Rows N F) (Col E) (Rows E F) [1] [0] [] [0] [] 1 ![1, F])
    (wfv : GatherDims.WF (Vec1 N) (Col E) (Vec1 E) [] [0] [] [0] [] 1 ![1])
    (wfs : ScatterDims.WF (Rows N F) (Col E) (Rows E F) [1] [0] [0] 1)
    (X : (Rows N K).Idx → EReal) (W : (Rows K F).Idx → EReal) (b : (Vec1 F).Idx → EReal) (d : (Vec1 N).Idx → EReal)
    (srcN dstN dstI : IVec (Col E) 32)
    (hd : ∀ n, 0 ≤ d n ∧ d n ≠ ⊤)
    (hnorm : ∀ e : Fin E, 0 ≤ (dstI (ix2 e (0 : Fin 1))).toInt → dstN (ix2 e (0 : Fin 1)) = dstI (ix2 e (0 : Fin 1))) :
    refLayer wfg wfv wfs X W b d srcN dstN dstI = kerLayer wfg wfs X W b d srcN dstI := by
  funext i
  unfold refLayer kerLayer
  rw [aggregate_eq wfg wfv wfs (matProd X W) (matProd (scaleRows X d) W) d srcN dstN dstI hd
    (fun p => matProd_scaleRows X W d hd p) hnorm i]

end Cert.Graph

end
-- ==== Proof.GraphOps.lean ====
/-
  A graph layer as the host operations spell it, read as the generic layer.

  The two programs write a layer's edge phase with the same handful of host operations: a gather of rows, a
  gather of per-node numbers, products, a `broadcast_in_dim` that spreads a per-edge number over the feature
  columns (or a per-node number over a node's row, or a bias row over all nodes), an accumulating scatter from a
  zero table, and sums.  Read at an index, at the ideal values, each is what its name says; here the readings are
  assembled once, for any sizes: the reference's spelling is "the sum of the edge terms landing on `i`, plus the
  bias" and the kernel's "the sum of the pre-scaled rows landing on `i`, times the `i`-th factor, plus the bias".
-/
import proofs.«126754_j27788438405708_2_alg».proof.Proof.GraphLayer
import Idealize.ShloMosaic.Lib.Pipeline.Value

noncomputable section

namespace Cert.Graph

open Idealize.ShloMosaic Idealize.ShloMosaic.ValueIdx Cert.Linear

variable {N E F : Nat}

/-- The shape of a scalar. -/
abbrev Sc : Shape := ⟨0, ![]⟩
/-- One row of `f` numbers as a `1 × f` table. -/
abbrev Row1 (f : Nat) : Shape := ⟨2, ![1, f]⟩

/-! ## `broadcast_in_dim` chains read at an index -/

/-- A column of per-entry words read at `(e, 0)` is the list's entry `e`. -/
theorem col_apply {α : Type} (hE : E ≠ 1) (h : (Vec1 E).BroadcastsInDim (Col E) (![0] : Fin 1 → Fin (Col E).rank))
    (v : (Vec1 E).Idx → α) (e : Fin E) :
    broadcastInDim (Col E) ![0] h v (ix2 e (0 : Fin 1)) = v (ix1 e) :=
  broadcastInDim_apply _ h v _ (ix1 e) fun a => by
    match a with
    | ⟨0, _⟩ => show e.val = if E = 1 then 0 else e.val; rw [if_neg hE]

/-- A per-edge number spread over the feature columns, read at `(e, f)`, is the number of edge `e`. -/
theorem spread_edges {α : Type} (hE : E ≠ 1)
    (h1 : (Col E).BroadcastsInDim (Rows E F) (![0, 1] : Fin 2 → Fin (Rows E F).rank))
    (h2 : (Vec1 E).BroadcastsInDim (Col E) (![0] : Fin 1 → Fin (Col E).rank))
    (v : (Vec1 E).Idx → α) (j : (Rows E F).Idx) :
    broadcastInDim (Rows E F) ![0, 1] h1 (broadcastInDim (Col E) ![0] h2 v) j = v (ix1 (n := E) (j 0)) := by
  rw [broadcastInDim_apply _ h1 _ j (ix2 (n0 := E) (j 0) (0 : Fin 1)) fun a => by
    match a with
    | ⟨0, _⟩ => show (j 0).val = if E = 1 then 0 else (j 0).val; rw [if_neg hE]
    | ⟨1, _⟩ => show 0 = if (1 : Nat) = 1 then 0 else (j 1).val; rw [if_pos rfl]]
  exact col_apply hE h2 v (j 0)

/-- A per-node column spread over a node's row, read at `(n, f)`, is the column's entry `(n, 0)`. -/
theorem spread_nodes {α : Type} (hN : N ≠ 1)
    (h : (Col N).BroadcastsInDim (Rows N F) (![0, 1] : Fin 2 → Fin (Rows N F).rank))
    (v : (Col N).Idx → α) (i : (Rows N F).Idx) :
    broadcastInDim (Rows N F) ![0, 1] h v i = v (ix2 (n0 := N) (i 0) (0 : Fin 1)) :=
  broadcastInDim_apply _ h v i _ fun a => by
    match a with
    | ⟨0, _⟩ => show (i 0).val = if N = 1 then 0 else (i 0).val; rw [if_neg hN]
    | ⟨1, _⟩ => show 0 = if (1 : Nat) = 1 then 0 else (i 1).val; rw [if_pos rfl]

/-- A bias row spread over all nodes, read at `(n, f)`, is the bias entry `f`. -/
theorem spread_bias {α : Type} (hF : F ≠ 1)
    (h1 : (Row1 F).BroadcastsInDim (Rows N F) (![0, 1] : Fin 2 → Fin (Rows N F).rank))
    (h2 : (Vec1 F).BroadcastsInDim (Row1 F) (![1] : Fin 1 → Fin (Row1 F).rank))
    (b : (Vec1 F).Idx → α) (i : (Rows N F).Idx) :
    broadcastInDim (Rows N F) ![0, 1] h1 (broadcastInDim (Row1 F) ![1] h2 b) i = b (ix1 (n := F) (i 1)) := by
  rw [broadcastInDim_apply _ h1 _ i (ix2 (n0 := 1) (n1 := F) (0 : Fin 1) (i 1)) fun a => by
    match a with
    | ⟨0, _⟩ => show 0 = if (1 : Nat) = 1 then 0 else (i 0).val; rw [if_pos rfl]
    | ⟨1, _⟩ => show (i 1).val = if F = 1 then 0 else (i 1).val; rw [if_neg hF]]
  exact broadcastInDim_apply _ h2 b _ (ix1 (i 1)) fun a => by
    match a with
    | ⟨0, _⟩ => show (i 1).val = if F = 1 then 0 else (i 1).val; rw [if_neg hF]

/-- A table of the zero word is the zero table. -/
theorem zeros_eq {s : Shape} (h : Sc.BroadcastsInDim s (![] : Fin 0 → Fin s.rank)) :
    broadcastInDim s ![] h (constant (F := Ideal) Sc .f32 0x00000000#32) = fun _ => (0 : EReal) :=
  funext fun _ => Ideal.ofBits_zero_f32

/-! ## The two spellings of the edge phase -/

/-- The reference's spelling. -/
theorem refAgg_eq (hE : E ≠ 1) (hF : F ≠ 1)
    (wfg : GatherDims.WF (Rows N F) (Col E) (Rows E F) [1] [0] [] [0] [] 1 ![1, F])
    (wfv : GatherDims.WF (Vec1 N) (Col E) (Vec1 E) [] [0] [] [0] [] 1 ![1])
    (wfs : ScatterDims.WF (Rows N F) (Col E) (Rows E F) [1] [0] [0] 1)
    (hz : Sc.BroadcastsInDim (Rows N F) (![] : Fin 0 → Fin (Rows N F).rank))
    (h1 : (Col E).BroadcastsInDim (Rows E F) (![0, 1] : Fin 2 → Fin (Rows E F).rank))
    (h2 : (Vec1 E).BroadcastsInDim (Col E) (![0] : Fin 1 → Fin (Col E).rank))
    (h3 : (Row1 F).BroadcastsInDim (Rows N F) (![0, 1] : Fin 2 → Fin (Rows N F).rank))
    (h4 : (Vec1 F).BroadcastsInDim (Row1 F) (![1] : Fin 1 → Fin (Row1 F).rank))
    (h : FVec Ideal (Rows N F) .f32) (b : FVec Ideal (Vec1 F) .f32) (d : FVec Ideal (Vec1 N) .f32)
    (srcN dstN dstI : IVec (Col E) 32) :
    addf (Host.scatterAdd (rowScatter N E F wfs) (broadcastInDim (Rows N F) ![] hz (constant (F := Ideal) Sc .f32 0x00000000#32)) dstI
        (mulf (Host.gather (rowGather N E F wfg) h srcN)
          (broadcastInDim (Rows E F) ![0, 1] h1 (broadcastInDim (Col E) ![0] h2
            (mulf (Host.gather (vecGather N E wfv) d srcN) (Host.gather (vecGather N E wfv) d dstN))))))
      (broadcastInDim (Rows N F) ![0, 1] h3 (broadcastInDim (Row1 F) ![1] h4 b))
    = fun i => Ideal.hostScatterAdd (rowScatter N E F wfs) (fun _ => 0) dstI (edgeTerm wfg wfv h d srcN dstN) i
        + b (ix1 (n := F) (i 1)) := by
  funext i
  rw [addf_apply, spread_bias hF h3 h4 b i, zeros_eq hz]
  refine congrArg (· + b (ix1 (n := F) (i 1))) ?_
  show Ideal.hostScatterAdd (rowScatter N E F wfs) (fun _ => 0) dstI _ i = _
  refine congrArg (fun u => Ideal.hostScatterAdd (rowScatter N E F wfs) (fun _ => 0) dstI u i) (funext fun j => ?_)
  rw [mulf_apply, spread_edges hE h1 h2 _ j, mulf_apply]
  rfl

/-- The kernel's spelling. -/
theorem kerTail_eq (hN : N ≠ 1) (hF : F ≠ 1)
    (wfg : GatherDims.WF (Rows N F) (Col E) (Rows E F) [1] [0] [] [0] [] 1 ![1, F])
    (wfs : ScatterDims.WF (Rows N F) (Col E) (Rows E F) [1] [0] [0] 1)
    (hz : Sc.BroadcastsInDim (Rows N F) (![] : Fin 0 → Fin (Rows N F).rank))
    (h5 : (Col N).BroadcastsInDim (Rows N F) (![0, 1] : Fin 2 → Fin (Rows N F).rank))
    (h3 : (Row1 F).BroadcastsInDim (Rows N F) (![0, 1] : Fin 2 → Fin (Rows N F).rank))
    (h4 : (Vec1 F).BroadcastsInDim (Row1 F) (![1] : Fin 1 → Fin (Row1 F).rank))
    (hs : FVec Ideal (Rows N F) .f32) (b : FVec Ideal (Vec1 F) .f32) (dcol : FVec Ideal (Col N) .f32)
    (srcN dstI : IVec (Col E) 32) :
    addf (mulf (Host.scatterAdd (rowScatter N E F wfs) (broadcastInDim (Rows N F) ![] hz (constant (F := Ideal) Sc .f32 0x00000000#32)) dstI
          (Host.gather (rowGather N E F wfg) hs srcN))
        (broadcastInDim (Rows N F) ![0, 1] h5 dcol))
      (broadcastInDim (Rows N F) ![0, 1] h3 (broadcastInDim (Row1 F) ![1] h4 b))
    = fun i => Ideal.hostScatterAdd (rowScatter N E F wfs) (fun _ => 0) dstI (edgeRow wfg hs srcN) i
          * dcol (ix2 (n0 := N) (i 0) (0 : Fin 1))
        + b (ix1 (n := F) (i 1)) := by
  funext i
  rw [addf_apply, spread_bias hF h3 h4 b i, mulf_apply, spread_nodes hN h5 dcol i, zeros_eq hz]
  rfl

end Cert.Graph

end
-- ==== Proof.Bridge.lean ====
/-
  The idealized kernel's result and the idealized reference's result are one function of the six arguments.

  Both programs compute the same lists of edge ends (with the self-loops appended), the same wrapped index words
  and the same guarded inverse square roots `d` of the degrees — the same operations on the edge array, so the same
  terms.  With them, a layer of the reference is the generic layer "multiplied along the edges" and a layer of the
  kernel (a matrix-unit region followed by its host tail) is the generic layer "scaled before and after", and the
  layer law joins the two.  Its two hypotheses hold of every edge array: `d[n]` is zero or the inverse square root
  of a positive number, hence not negative and not `+∞`; and wrapping changes only negative words, so it leaves alone
  the word of any update that lands.  The first layers agree on every input; the second layers are then the same
  two spellings of one layer over `max(first layer, 0)`.  Nothing has to be finite.
-/
import proofs.«126754_j27788438405708_2_alg».proof.Proof.KSpec
import proofs.«126754_j27788438405708_2_alg».proof.Proof.RSpec
import proofs.«126754_j27788438405708_2_alg».proof.Proof.GraphOps

set_option maxRecDepth 16384

noncomputable section

namespace Cert.Bridge

open Idealize.ShloMosaic Idealize.ShloMosaic.ValueIdx Cert.Graph Cert.Linear Cert.ScatterScale

/-- The edge array. -/
abbrev EdgeArr : Type := IVec (⟨2, ![2, 320000]⟩ : Shape) 32

/-! ## The records' side conditions at this program's sizes -/

theorem wfg256 : GatherDims.WF (Rows 10000 256) (Col 330000) (Rows 330000 256) [1] [0] [] [0] [] 1 ![1, 256] := by decide
theorem wfg128 : GatherDims.WF (Rows 10000 128) (Col 330000) (Rows 330000 128) [1] [0] [] [0] [] 1 ![1, 128] := by decide
theorem wfv : GatherDims.WF (Vec1 10000) (Col 330000) (Vec1 330000) [] [0] [] [0] [] 1 ![1] := by decide
theorem wfs256 : ScatterDims.WF (Rows 10000 256) (Col 330000) (Rows 330000 256) [1] [0] [0] 1 := by decide
theorem wfs128 : ScatterDims.WF (Rows 10000 128) (Col 330000) (Rows 330000 128) [1] [0] [0] 1 := by decide

/-! ## The shared graph quantities -/

/-- The source words as the row gathers read them. -/
abbrev srcN (ei : EdgeArr) : IVec (Col 330000) 32 := Cert.KernelIdeal.Term.col (Cert.KernelIdeal.Term.wrap (Cert.KernelIdeal.Term.srcSl ei))
/-- The destination words as the gathers of `d` read them. -/
abbrev dstN (ei : EdgeArr) : IVec (Col 330000) 32 := Cert.KernelIdeal.Term.col (Cert.KernelIdeal.Term.wrap (Cert.KernelIdeal.Term.dstSl ei))
/-- The destination words as the scatters read them. -/
abbrev dstI (ei : EdgeArr) : IVec (Col 330000) 32 := Cert.KernelIdeal.Term.col (Cert.KernelIdeal.Term.dstSl ei)
/-- The guarded inverse square roots of the degrees. -/
abbrev dinv (ei : EdgeArr) : (Vec1 10000).Idx → EReal := Cert.KernelIdeal.Term.dinvOf (Cert.KernelIdeal.Term.dstSl ei)

/-- The reference computes the same terms. -/
theorem r_srcSl (ei : EdgeArr) : Cert.ReferenceIdeal.Term.srcSl ei = Cert.KernelIdeal.Term.srcSl ei := rfl
theorem r_dstSl (ei : EdgeArr) : Cert.ReferenceIdeal.Term.dstSl ei = Cert.KernelIdeal.Term.dstSl ei := rfl
theorem r_srcN (ei : EdgeArr) : Cert.ReferenceIdeal.Term.col (Cert.ReferenceIdeal.Term.wrap (Cert.KernelIdeal.Term.srcSl ei)) = srcN ei := rfl
theorem r_dstN (ei : EdgeArr) : Cert.ReferenceIdeal.Term.col (Cert.ReferenceIdeal.Term.wrap (Cert.KernelIdeal.Term.dstSl ei)) = dstN ei := rfl
theorem r_dstI (ei : EdgeArr) : Cert.ReferenceIdeal.Term.col (Cert.KernelIdeal.Term.dstSl ei) = dstI ei := rfl
theorem r_dinv (ei : EdgeArr) : Cert.ReferenceIdeal.Term.dinvOf (Cert.KernelIdeal.Term.dstSl ei) = dinv ei := rfl

/-- `where(g > 0, rsqrt g, 0)` of any array `g`, entry by entry, is zero or the inverse square root of a positive
    number: not negative, not `+∞`. -/
theorem guarded_good (g : FVec Ideal (Vec1 10000) .f32)
    (h1 h2 : Sc.BroadcastsInDim (Vec1 10000) (![] : Fin 0 → Fin (Vec1 10000).rank)) (n : (Vec1 10000).Idx) :
    0 ≤ select (cmpf (F := Ideal) .ogt g (broadcastInDim (Vec1 10000) ![] h1 (constant (F := Ideal) Sc .f32 0x00000000#32)))
          (Host.rsqrt (F := Ideal) g) (broadcastInDim (Vec1 10000) ![] h2 (id (constant (F := Ideal) Sc .f32 0x00000000#32))) n
      ∧ select (cmpf (F := Ideal) .ogt g (broadcastInDim (Vec1 10000) ![] h1 (constant (F := Ideal) Sc .f32 0x00000000#32)))
          (Host.rsqrt (F := Ideal) g) (broadcastInDim (Vec1 10000) ![] h2 (id (constant (F := Ideal) Sc .f32 0x00000000#32))) n ≠ ⊤ := by
  show 0 ≤ Scalar.select (Ideal.cmp .ogt (g n) (Ideal.ofBits .f32 0x00000000#32)) (Ideal.rsqrt (g n)) (Ideal.ofBits .f32 0x00000000#32)
      ∧ Scalar.select (Ideal.cmp .ogt (g n) (Ideal.ofBits .f32 0x00000000#32)) (Ideal.rsqrt (g n)) (Ideal.ofBits .f32 0x00000000#32) ≠ ⊤
  rw [Ideal.ofBits_zero_f32]
  exact select_rsqrt_good _

/-- So is every inverse square root of a degree. -/
theorem dinv_good (ei : EdgeArr) (n : (Vec1 10000).Idx) : 0 ≤ dinv ei n ∧ dinv ei n ≠ ⊤ :=
  guarded_good (Cert.KernelIdeal.Term.degOf (Cert.KernelIdeal.Term.dstSl ei)) Cert.KernelIdeal.Gen.bcast_S_S10000 Cert.KernelIdeal.Gen.bcast_S_S10000 n

/-- Wrapping changes only negative words. -/
theorem wrap_of_nonneg (v : IVec (Vec1 330000) 32) (j : (Vec1 330000).Idx) (h : 0 ≤ (v j).toInt) : Cert.KernelIdeal.Term.wrap v j = v j := by
  show Scalar.select (IntOp.cmpi .slt (v j) 0#32) _ (v j) = v j
  have hc : IntOp.cmpi .slt (v j) 0#32 = 0#1 := by
    unfold IntOp.cmpi
    have : (v j).slt 0#32 = false := by
      rw [BitVec.slt, BitVec.toInt_zero]
      exact decide_eq_false (not_lt.mpr h)
    rw [this]; rfl
  rw [hc, select_zero]

/-- So the words the gathers of `d` read agree with the words the scatters read wherever those are not negative. -/
theorem dst_norm (ei : EdgeArr) (e : Fin 330000) (h : 0 ≤ (dstI ei (ix2 e (0 : Fin 1))).toInt) :
    dstN ei (ix2 e (0 : Fin 1)) = dstI ei (ix2 e (0 : Fin 1)) := by
  have h1 : dstI ei (ix2 e (0 : Fin 1)) = Cert.KernelIdeal.Term.dstSl ei (ix1 e) :=
    col_apply (E := 330000) (by decide) Cert.KernelIdeal.Gen.bcast_S330000_S330000x1_0 (Cert.KernelIdeal.Term.dstSl ei) e
  have h2 : dstN ei (ix2 e (0 : Fin 1)) = Cert.KernelIdeal.Term.wrap (Cert.KernelIdeal.Term.dstSl ei) (ix1 e) :=
    col_apply (E := 330000) (by decide) Cert.KernelIdeal.Gen.bcast_S330000_S330000x1_0 (Cert.KernelIdeal.Term.wrap (Cert.KernelIdeal.Term.dstSl ei)) e
  rw [h2, h1, wrap_of_nonneg _ _ (h1 ▸ h)]

/-- The one-column array of the inverse square roots, read at `(n, 0)`. -/
theorem dinvCol_apply (ei : EdgeArr) (n : Fin 10000) :
    Cert.KernelIdeal.Term.dinvColOf (Cert.KernelIdeal.Term.dstSl ei) (ix2 n (0 : Fin 1)) = dinv ei (ix1 n) :=
  col_apply (E := 10000) (by decide) Cert.KernelIdeal.Gen.bcast_S10000_S10000x1_0 (dinv ei) n

/-! ## The matrix products -/

theorem contracts_r512 : Contracts Cert.ReferenceIdeal.dot_S10000x512_S512x256_S10000x256_1_0_0_1_n_n :=
  { rank := rfl
    size := rfl
    lhs0 := fun i q => by
      unfold DotDims.lhsIdx
      rw [dif_neg (show ¬(0 : Fin 2) ∈ Cert.ReferenceIdeal.dot_S10000x512_S512x256_S10000x256_1_0_0_1_n_n.lhsBatch by decide), dif_pos (show (0 : Fin 2) ∈ Cert.ReferenceIdeal.dot_S10000x512_S512x256_S10000x256_1_0_0_1_n_n.lhsNonContracting by decide)]
      rfl
    lhs1 := fun i q => Cert.ReferenceIdeal.dot_S10000x512_S512x256_S10000x256_1_0_0_1_n_n.lhsIdx_val_of_single rfl i q
    rhs0 := fun i q => Cert.ReferenceIdeal.dot_S10000x512_S512x256_S10000x256_1_0_0_1_n_n.rhsIdx_val_of_single rfl i q
    rhs1 := fun i q => by
      unfold DotDims.rhsIdx
      rw [dif_neg (show ¬(1 : Fin 2) ∈ Cert.ReferenceIdeal.dot_S10000x512_S512x256_S10000x256_1_0_0_1_n_n.rhsBatch by decide), dif_pos (show (1 : Fin 2) ∈ Cert.ReferenceIdeal.dot_S10000x512_S512x256_S10000x256_1_0_0_1_n_n.rhsNonContracting by decide)]
      rfl }
theorem contracts_r256 : Contracts Cert.ReferenceIdeal.dot_S10000x256_S256x128_S10000x128_1_0_0_1_n_n :=
  { rank := rfl
    size := rfl
    lhs0 := fun i q => by
      unfold DotDims.lhsIdx
      rw [dif_neg (show ¬(0 : Fin 2) ∈ Cert.ReferenceIdeal.dot_S10000x256_S256x128_S10000x128_1_0_0_1_n_n.lhsBatch by decide), dif_pos (show (0 : Fin 2) ∈ Cert.ReferenceIdeal.dot_S10000x256_S256x128_S10000x128_1_0_0_1_n_n.lhsNonContracting by decide)]
      rfl
    lhs1 := fun i q => Cert.ReferenceIdeal.dot_S10000x256_S256x128_S10000x128_1_0_0_1_n_n.lhsIdx_val_of_single rfl i q
    rhs0 := fun i q => Cert.ReferenceIdeal.dot_S10000x256_S256x128_S10000x128_1_0_0_1_n_n.rhsIdx_val_of_single rfl i q
    rhs1 := fun i q => by
      unfold DotDims.rhsIdx
      rw [dif_neg (show ¬(1 : Fin 2) ∈ Cert.ReferenceIdeal.dot_S10000x256_S256x128_S10000x128_1_0_0_1_n_n.rhsBatch by decide), dif_pos (show (1 : Fin 2) ∈ Cert.ReferenceIdeal.dot_S10000x256_S256x128_S10000x128_1_0_0_1_n_n.rhsNonContracting by decide)]
      rfl }

/-- `max(·, 0)`, entry by entry (the zero kept as its word). -/
def reluArr {n k : Nat} (A : (Rows n k).Idx → EReal) : (Rows n k).Idx → EReal :=
  fun i => max (A i) (Ideal.ofBits .f32 0x00000000#32)

theorem prod1_eq (x : FVec Ideal (Rows 10000 512) .f32) (w : FVec Ideal (Rows 512 256) .f32) : Cert.ReferenceIdeal.Term.prod1 x w = matProd x w :=
  dotGeneral_eq contracts_r512 _ _ x w
theorem mid_eq (A : FVec Ideal (Rows 10000 256) .f32) (w : FVec Ideal (Rows 256 128) .f32) : Cert.ReferenceIdeal.Term.mid A w = matProd (reluArr A) w :=
  dotGeneral_eq contracts_r256 _ _ _ w

theorem region0Out_eq (x : FVec Ideal (Rows 10000 512) .f32) (w : FVec Ideal (Rows 512 256) .f32) (ei : EdgeArr) :
    Cert.KernelIdeal.Term.region0Out x w (Cert.KernelIdeal.Term.dinvColOf (Cert.KernelIdeal.Term.dstSl ei)) = matProd (scaleRows x (dinv ei)) w := by
  unfold Cert.KernelIdeal.Term.region0Out scaleRows
  refine congrArg (fun X => matProd (R := 10000) (K := 512) (N := 256) X w) (funext fun i => ?_)
  show x i * _ = x i * _
  rw [dinvCol_apply ei (i 0)]
theorem region1Out_eq (A : FVec Ideal (Rows 10000 256) .f32) (w : FVec Ideal (Rows 256 128) .f32) (ei : EdgeArr) :
    Cert.KernelIdeal.Term.region1Out A w (Cert.KernelIdeal.Term.dinvColOf (Cert.KernelIdeal.Term.dstSl ei)) = matProd (scaleRows (reluArr A) (dinv ei)) w := by
  unfold Cert.KernelIdeal.Term.region1Out scaleRows reluArr
  refine congrArg (fun X => matProd (R := 10000) (K := 256) (N := 128) X w) (funext fun i => ?_)
  show max (A i) _ * _ = max (A i) _ * _
  rw [dinvCol_apply ei (i 0)]

/-! ## Each program's layers are the generic layer's two spellings -/

theorem kLayer256 (x : FVec Ideal (Rows 10000 512) .f32) (w : FVec Ideal (Rows 512 256) .f32) (b : FVec Ideal (Vec1 256) .f32) (ei : EdgeArr) :
    Cert.KernelIdeal.Term.tail256 (Cert.KernelIdeal.Term.region0Out x w (Cert.KernelIdeal.Term.dinvColOf (Cert.KernelIdeal.Term.dstSl ei))) b (Cert.KernelIdeal.Term.srcSl ei) (Cert.KernelIdeal.Term.dstSl ei) (Cert.KernelIdeal.Term.dinvColOf (Cert.KernelIdeal.Term.dstSl ei))
      = kerLayer wfg256 wfs256 x w b (dinv ei) (srcN ei) (dstI ei) := by
  unfold Cert.KernelIdeal.Term.tail256
  rw [region0Out_eq]
  refine (kerTail_eq (N := 10000) (E := 330000) (F := 256) (by decide) (by decide) wfg256 wfs256
    Cert.KernelIdeal.Gen.bcast_S_S10000x256 Cert.KernelIdeal.Gen.bcast_S10000x1_S10000x256_0_1 Cert.KernelIdeal.Gen.bcast_S1x256_S10000x256_0_1 Cert.KernelIdeal.Gen.bcast_S256_S1x256_1
    _ b _ (srcN ei) (dstI ei)).trans ?_
  funext i
  unfold kerLayer
  rw [dinvCol_apply ei (i 0)]
theorem kLayer128 (A : FVec Ideal (Rows 10000 256) .f32) (w : FVec Ideal (Rows 256 128) .f32) (b : FVec Ideal (Vec1 128) .f32) (ei : EdgeArr) :
    Cert.KernelIdeal.Term.tail128 (Cert.KernelIdeal.Term.region1Out A w (Cert.KernelIdeal.Term.dinvColOf (Cert.KernelIdeal.Term.dstSl ei))) b (Cert.KernelIdeal.Term.srcSl ei) (Cert.KernelIdeal.Term.dstSl ei) (Cert.KernelIdeal.Term.dinvColOf (Cert.KernelIdeal.Term.dstSl ei))
      = kerLayer wfg128 wfs128 (reluArr A) w b (dinv ei) (srcN ei) (dstI ei) := by
  unfold Cert.KernelIdeal.Term.tail128
  rw [region1Out_eq]
  refine (kerTail_eq (N := 10000) (E := 330000) (F := 128) (by decide) (by decide) wfg128 wfs128
    Cert.KernelIdeal.Gen.bcast_S_S10000x128 Cert.KernelIdeal.Gen.bcast_S10000x1_S10000x128_0_1 Cert.KernelIdeal.Gen.bcast_S1x128_S10000x128_0_1 Cert.KernelIdeal.Gen.bcast_S128_S1x128_1
    _ b _ (srcN ei) (dstI ei)).trans ?_
  funext i
  unfold kerLayer
  rw [dinvCol_apply ei (i 0)]

theorem rLayer256 (x : FVec Ideal (Rows 10000 512) .f32) (w : FVec Ideal (Rows 512 256) .f32) (b : FVec Ideal (Vec1 256) .f32) (ei : EdgeArr) :
    Cert.ReferenceIdeal.Term.agg256 (Cert.ReferenceIdeal.Term.prod1 x w) b (Cert.ReferenceIdeal.Term.srcSl ei) (Cert.ReferenceIdeal.Term.dstSl ei) (Cert.ReferenceIdeal.Term.dinvOf (Cert.ReferenceIdeal.Term.dstSl ei))
      = refLayer wfg256 wfv wfs256 x w b (dinv ei) (srcN ei) (dstN ei) (dstI ei) := by
  rw [prod1_eq, r_srcSl, r_dstSl, r_dinv]
  unfold Cert.ReferenceIdeal.Term.agg256
  rw [r_srcN, r_dstN, r_dstI]
  exact refAgg_eq (N := 10000) (E := 330000) (F := 256) (by decide) (by decide) wfg256 wfv wfs256
    Cert.ReferenceIdeal.Gen.bcast_S_S10000x256 Cert.ReferenceIdeal.Gen.bcast_S330000x1_S330000x256_0_1 Cert.ReferenceIdeal.Gen.bcast_S330000_S330000x1_0
    Cert.ReferenceIdeal.Gen.bcast_S1x256_S10000x256_0_1 Cert.ReferenceIdeal.Gen.bcast_S256_S1x256_1 _ b (dinv ei) (srcN ei) (dstN ei) (dstI ei)
theorem rLayer128 (A : FVec Ideal (Rows 10000 256) .f32) (w : FVec Ideal (Rows 256 128) .f32) (b : FVec Ideal (Vec1 128) .f32) (ei : EdgeArr) :
    Cert.ReferenceIdeal.Term.agg128 (Cert.ReferenceIdeal.Term.mid A w) b (Cert.ReferenceIdeal.Term.srcSl ei) (Cert.ReferenceIdeal.Term.dstSl ei) (Cert.ReferenceIdeal.Term.dinvOf (Cert.ReferenceIdeal.Term.dstSl ei))
      = refLayer wfg128 wfv wfs128 (reluArr A) w b (dinv ei) (srcN ei) (dstN ei) (dstI ei) := by
  rw [mid_eq, r_srcSl, r_dstSl, r_dinv]
  unfold Cert.ReferenceIdeal.Term.agg128
  rw [r_srcN, r_dstN, r_dstI]
  exact refAgg_eq (N := 10000) (E := 330000) (F := 128) (by decide) (by decide) wfg128 wfv wfs128
    Cert.ReferenceIdeal.Gen.bcast_S_S10000x128 Cert.ReferenceIdeal.Gen.bcast_S330000x1_S330000x128_0_1 Cert.ReferenceIdeal.Gen.bcast_S330000_S330000x1_0
    Cert.ReferenceIdeal.Gen.bcast_S1x128_S10000x128_0_1 Cert.ReferenceIdeal.Gen.bcast_S128_S1x128_1 _ b (dinv ei) (srcN ei) (dstN ei) (dstI ei)

/-! ## The two results -/

/-- THE BRIDGE: on every input, the kernel's result is the reference's. -/
theorem value_eq (x : FVec Ideal (Rows 10000 512) .f32) (ei : EdgeArr) (w1 : FVec Ideal (Rows 512 256) .f32) (b1 : FVec Ideal (Vec1 256) .f32)
    (w2 : FVec Ideal (Rows 256 128) .f32) (b2 : FVec Ideal (Vec1 128) .f32) :
    Cert.ReferenceIdeal.Term.referenceValue x ei w1 b1 w2 b2 = Cert.KernelIdeal.Term.kernelValue x ei w1 b1 w2 b2 := by
  unfold Cert.ReferenceIdeal.Term.referenceValue Cert.KernelIdeal.Term.kernelValue
  rw [rLayer256, kLayer256, rLayer128, kLayer128,
    layer_eq wfg256 wfv wfs256 x w1 b1 (dinv ei) (srcN ei) (dstN ei) (dstI ei) (dinv_good ei) (dst_norm ei),
    layer_eq wfg128 wfv wfs128 _ w2 b2 (dinv ei) (srcN ei) (dstN ei) (dstI ei) (dinv_good ei) (dst_norm ei)]

end Cert.Bridge

end
-- ==== Proof.lean ====
/-
  Two graph-convolution layers on 10000 nodes and 320000 edges: a Pallas kernel against its jnp reference,
  equal at the ideal values on every input.

  With `d` the guarded inverse square roots of the node degrees (self-loops counted), a layer of the reference is
      out[i, f] = ∑_{edges e into i} (X·W)[src e, f] · (d[src e] · d[i]) + b[f],
  the sum an accumulating scatter over the edge list.  The kernel folds the normalisation: a matrix-unit region
  computes `(d ∘ X)·W` (row `n` of `X` scaled by `d[n]`, after a `max(·, 0)` in the second layer), the host sums the
  gathered rows of that product over the edges into `i`, scales row `i` by `d[i]` and adds the bias.  The two agree
  because `d[n]`, zero or an inverse square root of a positive number, is not negative and not `+∞`, and such a factor
  moves across any finite sum of extended reals — no input has to be finite for it, so the precondition is never
  opened.  The pieces: the law itself over generic gather and scatter records (GraphIndex, GraphLayer), the host
  operations read as the generic layer (GraphOps), each program's result as one function of its arguments (the
  kernel's from the boundaries of its seven segments and its two regions' output arrays, the reference's from its
  straight line of operations run in seven pieces), and the identification of the two functions (Bridge).
  The word-level kernel needs only its frame; its idealization rewrote no operation, so `preserves` is `True`.
-/
import proofs.«126754_j27788438405708_2_alg».proof.Defs
import proofs.«126754_j27788438405708_2_alg».proof.Proof.Gen.Kernel
import proofs.«126754_j27788438405708_2_alg».proof.Proof.Gen.Kernel.Frame
import proofs.«126754_j27788438405708_2_alg».proof.Proof.Gen.KernelIdeal
import proofs.«126754_j27788438405708_2_alg».proof.Proof.Gen.KernelIdeal.Frame
import proofs.«126754_j27788438405708_2_alg».proof.Proof.Gen.ReferenceIdeal
import proofs.«126754_j27788438405708_2_alg».proof.Proof.Gen.Pre_finite_inputs
import proofs.«126754_j27788438405708_2_alg».proof.Proof.KValue
import proofs.«126754_j27788438405708_2_alg».proof.Proof.RValue
import proofs.«126754_j27788438405708_2_alg».proof.Proof.Bridge

noncomputable section

namespace Cert.Proof

open Idealize.ShloMosaic Idealize.SL.Sem

/-- The word-level kernel runs and leaves its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RunValue.run_value m ρ)

/-- The ideal pass rewrote nothing. -/
theorem preserves : Cert.preserves_Kernel_KernelIdeal := trivial

/-- From memories that agree on the arguments both idealized programs end, the kernel's result at `kernelValue` of
    the arguments and the reference's at `referenceValue` of the same arguments: one function. -/
theorem algebraic : Cert.algebraic_KernelIdeal_ReferenceIdeal := by
  intro m ρ m' ρ' _ hagree
  refine ⟨fun c => Cert.KernelIdeal.Term.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.RunValue.run_value m ρ, ?_⟩
  refine (θ_run Cert.ReferenceIdeal.defs _ _).mono (fun _ h c => ⟨(h c).1.trans ?_, (h c).2⟩)
    (Cert.ReferenceIdeal.RunValue.run_value m' ρ')
  rw [(hagree c).1, (hagree c).2.1, (hagree c).2.2.1, (hagree c).2.2.2.1, (hagree c).2.2.2.2.1, (hagree c).2.2.2.2.2]
  exact Cert.Bridge.value_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
